-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S_ : Shape := ⟨0, ![]⟩
abbrev S128x128 : Shape := ⟨2, ![128, 128]⟩
abbrev S128 : Shape := ⟨1, ![128]⟩
abbrev S128x64 : Shape := ⟨2, ![128, 64]⟩
abbrev S64 : Shape := ⟨1, ![64]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  reducesTo_S_S_d : S_.ReducesTo [] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S128x64 .f32) (main_arg13 : FVec F S64 .f32) (main_v46 : IVec S_ 1) (main_v49 : IVec S128 1) (main_c_19 : IVec S_ 1) : IVec S_ 1 :=
  let main_v50 : IVec S_ 1 := (fun x v => Host.reduce IntOp.andi x v reducesTo_S128_S_d0 h_S_) main_v49 main_c_19
  let main_v51 : IVec S_ 1 := andi main_v46 main_v50
  let main_v52 : FVec F S128x64 .f32 := Host.absf main_arg12
  let main_cst_20 : FVec F S_ .f32 := constant S_ .f32 0x7F800000#32
  let main_v53 : FVec F S128x64 .f32 := broadcastInDim S128x64 ![] bcast_S_S128x64 main_cst_20
  let main_v54 : IVec S128x64 1 := cmpf .olt main_v52 main_v53
  let main_c_21 : IVec S_ 1 := constantI S_ 1 1#1
  let main_v55 : IVec S_ 1 := (fun x v => Host.reduce IntOp.andi x v reducesTo_S128x64_S_d0_1 h_S_) main_v54 main_c_21
  let main_v56 : IVec S_ 1 := andi main_v51 main_v55
  let main_v57 : FVec F S64 .f32 := Host.absf main_arg13
  let main_cst_22 : FVec F S_ .f32 := constant S_ .f32 0x7F800000#32
  let main_v58 : FVec F S64 .f32 := broadcastInDim S64 ![] bcast_S_S64 main_cst_22
  let main_v59 : IVec S64 1 := cmpf .olt main_v57 main_v58
  let main_c_23 : IVec S_ 1 := constantI S_ 1 1#1
  let main_v60 : IVec S_ 1 := (fun x v => Host.reduce IntOp.andi x v reducesTo_S64_S_d0 h_S_) main_v59 main_c_23
  let main_v61 : IVec S_ 1 := andi main_v56 main_v60
  main_v61

def fn_part2 {F : FTy → Type} [FloatOps F] (main_arg9 : FVec F S128 .f32) (main_arg10 : FVec F S128x128 .f32) (main_arg11 : FVec F S128 .f32) (main_arg12 : FVec F S128x64 .f32) (main_arg13 : FVec F S64 .f32) (main_v31 : IVec S_ 1) (main_v32 : FVec F S128x128 .f32) (main_cst_12 : FVec F S_ .f32) : IVec S_ 1 :=
  let main_v33 : FVec F S128x128 .f32 := broadcastInDim S128x128 ![] bcast_S_S128x128 main_cst_12
  let main_v34 : IVec S128x128 1 := cmpf .olt main_v32 main_v33
  let main_c_13 : IVec S_ 1 := constantI S_ 1 1#1
  let main_v35 : IVec S_ 1 := (fun x v => Host.reduce IntOp.andi x v reducesTo_S128x128_S_d0_1 h_S_) main_v34 main_c_13
  let main_v36 : IVec S_ 1 := andi main_v31 main_v35
  let main_v37 : FVec F S128 .f32 := Host.absf main_arg9
  let main_cst_14 : FVec F S_ .f32 := constant S_ .f32 0x7F800000#32
  let main_v38 : FVec F S128 .f32 := broadcastInDim S128 ![] bcast_S_S128 main_cst_14
  let main_v39 : IVec S128 1 := cmpf .olt main_v37 main_v38
  let main_c_15 : IVec S_ 1 := constantI S_ 1 1#1
  let main_v40 : IVec S_ 1 := (fun x v => Host.reduce IntOp.andi x v reducesTo_S128_S_d0 h_S_) main_v39 main_c_15
  let main_v41 : IVec S_ 1 := andi main_v36 main_v40
  let main_v42 : FVec F S128x128 .f32 := Host.absf main_arg10
  let main_cst_16 : FVec F S_ .f32 := constant S_ .f32 0x7F800000#32
  let main_v43 : FVec F S128x128 .f32 := broadcastInDim S128x128 ![] bcast_S_S128x128 main_cst_16
  let main_v44 : IVec S128x128 1 := cmpf .olt main_v42 main_v43
  let main_c_17 : IVec S_ 1 := constantI S_ 1 1#1
  let main_v45 : IVec S_ 1 := (fun x v => Host.reduce IntOp.andi x v reducesTo_S128x128_S_d0_1 h_S_) main_v44 main_c_17
  let main_v46 : IVec S_ 1 := andi main_v41 main_v45
  let main_v47 : FVec F S128 .f32 := Host.absf main_arg11
  let main_cst_18 : FVec F S_ .f32 := constant S_ .f32 0x7F800000#32
  let main_v48 : FVec F S128 .f32 := broadcastInDim S128 ![] bcast_S_S128 main_cst_18
  let main_v49 : IVec S128 1 := cmpf .olt main_v47 main_v48
  let main_c_19 : IVec S_ 1 := constantI S_ 1 1#1
  fn_part3 (F := F) main_arg12 main_arg13 main_v46 main_v49 main_c_19

def fn_part1 {F : FTy → Type} [FloatOps F] (main_arg5 : FVec F S128x128 .f32) (main_arg6 : FVec F S128 .f32) (main_arg7 : FVec F S_ .f32) (main_arg8 : FVec F S128x128 .f32) (main_arg9 : FVec F S128 .f32) (main_arg10 : FVec F S128x128 .f32) (main_arg11 : FVec F S128 .f32) (main_arg12 : FVec F S128x64 .f32) (main_arg13 : FVec F S64 .f32) (main_v12 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v12 main_v16
  let main_v18 : FVec F S128x128 .f32 := Host.absf main_arg5
  let main_cst_6 : FVec F S_ .f32 := constant S_ .f32 0x7F800000#32
  let main_v19 : FVec F S128x128 .f32 := broadcastInDim S128x128 ![] bcast_S_S128x128 main_cst_6
  let main_v20 : IVec S128x128 1 := cmpf .olt main_v18 main_v19
  let main_c_7 : IVec S_ 1 := constantI S_ 1 1#1
  let main_v21 : IVec S_ 1 := (fun x v => Host.reduce IntOp.andi x v reducesTo_S128x128_S_d0_1 h_S_) main_v20 main_c_7
  let main_v22 : IVec S_ 1 := andi main_v17 main_v21
  let main_v23 : FVec F S128 .f32 := Host.absf main_arg6
  let main_cst_8 : FVec F S_ .f32 := constant S_ .f32 0x7F800000#32
  let main_v24 : FVec F S128 .f32 := broadcastInDim S128 ![] bcast_S_S128 main_cst_8
  let main_v25 : IVec S128 1 := cmpf .olt main_v23 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v22 main_v26
  let main_v28 : FVec F S_ .f32 := Host.absf main_arg7
  let main_cst_10 : FVec F S_ .f32 := constant S_ .f32 0x7F800000#32
  let main_v29 : IVec S_ 1 := cmpf .olt main_v28 main_cst_10
  let main_c_11 : IVec S_ 1 := constantI S_ 1 1#1
  let main_v30 : IVec S_ 1 := (fun x v => Host.reduce IntOp.andi x v reducesTo_S_S_d h_S_) main_v29 main_c_11
  let main_v31 : IVec S_ 1 := andi main_v27 main_v30
  let main_v32 : FVec F S128x128 .f32 := Host.absf main_arg8
  let main_cst_12 : FVec F S_ .f32 := constant S_ .f32 0x7F800000#32
  fn_part2 (F := F) main_arg9 main_arg10 main_arg11 main_arg12 main_arg13 main_v31 main_v32 main_cst_12

def fn {F : FTy → Type} [FloatOps F] (main_arg0 : FVec F S50000x128 .f32) (main_arg1 : IVec S2x800000 32) (main_arg2 : FVec F S_ .f32) (main_arg3 : FVec F S128x128 .f32) (main_arg4 : FVec F S128 .f32) (main_arg5 : FVec F S128x128 .f32) (main_arg6 : FVec F S128 .f32) (main_arg7 : FVec F S_ .f32) (main_arg8 : FVec F S128x128 .f32) (main_arg9 : FVec F S128 .f32) (main_arg10 : FVec F S128x128 .f32) (main_arg11 : FVec F S128 .f32) (main_arg12 : FVec F S128x64 .f32) (main_arg13 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S128x128 .f32 := Host.absf main_arg3
  let main_cst_2 : FVec F S_ .f32 := constant S_ .f32 0x7F800000#32
  let main_v9 : FVec F S128x128 .f32 := broadcastInDim S128x128 ![] bcast_S_S128x128 main_cst_2
  let main_v10 : IVec S128x128 1 := cmpf .olt main_v8 main_v9
  let main_c_3 : IVec S_ 1 := constantI S_ 1 1#1
  let main_v11 : IVec S_ 1 := (fun x v => Host.reduce IntOp.andi x v reducesTo_S128x128_S_d0_1 h_S_) main_v10 main_c_3
  let main_v12 : IVec S_ 1 := andi main_v7 main_v11
  let main_v13 : FVec F S128 .f32 := Host.absf main_arg4
  let main_cst_4 : FVec F S_ .f32 := constant S_ .f32 0x7F800000#32
  let main_v14 : FVec F S128 .f32 := broadcastInDim S128 ![] bcast_S_S128 main_cst_4
  let main_v15 : IVec S128 1 := cmpf .olt main_v13 main_v14
  let main_c_5 : IVec S_ 1 := constantI S_ 1 1#1
  fn_part1 (F := F) main_arg5 main_arg6 main_arg7 main_arg8 main_arg9 main_arg10 main_arg11 main_arg12 main_arg13 main_v12 main_v15 main_c_5
-- ==== Kernel.lean ====
abbrev S50000x128 : Shape := ⟨2, ![50000, 128]⟩
abbrev S2x800000 : Shape := ⟨2, ![2, 800000]⟩
abbrev S_ : Shape := ⟨0, ![]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩
abbrev S1x64 : Shape := ⟨2, ![1, 64]⟩
abbrev S50000x64 : Shape := ⟨2, ![50000, 64]⟩
abbrev S2000x64 : Shape := ⟨2, ![2000, 64]⟩
abbrev S2000 : Shape := ⟨1, ![2000]⟩
abbrev S2000x1 : Shape := ⟨2, ![2000, 1]⟩

abbrev nBuf : Space → Nat
  | .hbm => 67
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S_, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S128x128, .bf16⟩
  | .hbm, ⟨19, _⟩ => ⟨S128x128, .bf16⟩
  | .hbm, ⟨20, _⟩ => ⟨S128x128, .bf16⟩
  | .hbm, ⟨21, _⟩ => ⟨S128x128, .bf16⟩
  | .hbm, ⟨22, _⟩ => ⟨S128x64, .bf16⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S_, .f32⟩
  | .hbm, ⟨37, _⟩ => ⟨S_, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S_, .f32⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S1x128, .f32⟩
  | .hbm, ⟨64, _⟩ => ⟨S50000x128, .f32⟩
  | .hbm, ⟨65, _⟩ => ⟨S1x64, .f32⟩
  | .hbm, ⟨66, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .bf16⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x64, .bf16⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_2 : Ref sig .tc := ⟨.hbm, 44, rfl⟩
abbrev main_v26 : Ref sig .tc := ⟨.hbm, 45, rfl⟩
abbrev main_v27 : Ref sig .tc := ⟨.hbm, 46, rfl⟩
abbrev main_c_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .bf16 = 32 ∨ (Rect.block (s := S128x64) S128x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S_ : Shape := ⟨0, ![]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩
abbrev S50000 : Shape := ⟨1, ![50000]⟩
abbrev S50000x1 : Shape := ⟨2, ![50000, 1]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S_, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | .hbm, ⟨86, _⟩ => ⟨S_, .f32⟩
  | .hbm, ⟨87, _⟩ => ⟨S50000, .f32⟩
  | .hbm, ⟨88, _⟩ => ⟨S_, .f32⟩
  | .hbm, ⟨89, _⟩ => ⟨S50000, .f32⟩
  | .hbm, ⟨90, _⟩ => ⟨S50000, .f32⟩
  | .hbm, ⟨91, _⟩ => ⟨S50000x1, .f32⟩
  | .hbm, ⟨92, _⟩ => ⟨S50000x64, .f32⟩
  | .hbm, ⟨93, _⟩ => ⟨S50000x64, .f32⟩
  | .hbm, ⟨94, _⟩ => ⟨S50000x64, .f32⟩
  | .hbm, ⟨95, _⟩ => ⟨S_, .f32⟩
  | .hbm, ⟨96, _⟩ => ⟨S50000, .f32⟩
  | .hbm, ⟨97, _⟩ => ⟨S50000x1, .f32⟩
  | .hbm, ⟨98, _⟩ => ⟨S50000x1, .f32⟩
  | .hbm, ⟨99, _⟩ => ⟨S50000x64, .f32⟩
  | .hbm, ⟨100, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call0_cst : Ref sig .tc := ⟨.hbm, 40, rfl⟩
abbrev main_call0_v0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_cst : Ref sig .tc := ⟨.hbm, 47, rfl⟩
abbrev main_call1_v0 : Ref sig .tc := ⟨.hbm, 48, rfl⟩
abbrev main_v27 : Ref sig .tc := ⟨.hbm, 49, rfl⟩
abbrev main_c_2 : Ref sig .tc := ⟨.hbm, 50, rfl⟩
abbrev main_v28 : Ref sig .tc := ⟨.hbm, 51, rfl⟩
abbrev main_v29 : Ref sig .tc := ⟨.hbm, 52, rfl⟩
abbrev main_c_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call2_cst : Ref sig .tc := ⟨.hbm, 72, rfl⟩
abbrev main_call2_v0 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call3_cst : Ref sig .tc := ⟨.hbm, 79, rfl⟩
abbrev main_call3_v0 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call4_cst : Ref sig .tc := ⟨.hbm, 86, rfl⟩
abbrev main_call4_v0 : Ref sig .tc := ⟨.hbm, 87, rfl⟩
abbrev main_call4_cst_0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_v6 : Ref sig .tc := ⟨.hbm, 94, rfl⟩
abbrev main_call4_cst_1 : Ref sig .tc := ⟨.hbm, 95, rfl⟩
abbrev main_call4_v7 : Ref sig .tc := ⟨.hbm, 96, rfl⟩
abbrev main_call4_v8 : Ref sig .tc := ⟨.hbm, 97, rfl⟩
abbrev main_call4_v9 : Ref sig .tc := ⟨.hbm, 98, rfl⟩
abbrev main_call4_v10 : Ref sig .tc := ⟨.hbm, 99, rfl⟩
abbrev main_v56 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The kernel program's run with its result array named.

  Every weakly fair execution of @main terminates, nothing faulting, with the result array at what the last region's
  write-backs leave in it (the buffer contents at the last segment boundary, read at the result's buffer) and the
  argument arrays as launched: the launch over the program's six segments — three stretches of host operations and three
  regions —, the last thread state read against the final state.
-/
import proofs.«174829_j61040075211351_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments unchanged. -/
theorem run_out : θ_run defs (onTc (τ := τ) (main (F := F))) ⟨m, fun _ => 0, ρ⟩ (fun r => ∀ c : Dev nD,
      r.2.mem ((c.tc : Thread nD τ).loc main_v44) = V6 m ρ c main_v44
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.Hand

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«174829_j61040075211351_1_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«174829_j61040075211351_1_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibRowLayers.lean ====
/-
  The two dense layers a vector unit computes on a block of rows, as whole-array functions on the extended reals.

  A block of `M` rows with `K` features, a `K × N` weight and a `1 × N` bias row give `relu (x · W + b)`: entry
  `(p, q)` is the larger of `0` and `∑ k, x (p, k) · W (k, q) + b (0, q)`. The narrowing of the operands to a shorter float
  format before the product is the identity on extended reals, the product accumulates into zero, and the bias row is
  repeated down the rows. A second product and bias on top of that, without the positive part, gives the output layer.

  An entry of either layer depends on one row of the block only, so a block of rows of a taller array computes the
  same entries as the layer of the whole array at those rows.
-/
import Idealize.ShloMosaic.Lib.ValueIdx
import Idealize.ShloMosaic.Lib.Pipeline.Value
import Idealize.ShloMosaic.PureOps.Ideal.Laws
import proofs.«174829_j61040075211351_1_alg».proof.Proof.LibDense

noncomputable section

open scoped BigOperators

namespace Cert.Lib.RowLayers

open Idealize.ShloMosaic Idealize.ShloMosaic.ValueIdx Cert.Lib.BiasDot Cert.Lib.Dense

variable {m M K N N' : Nat}

/-- A `1 × N` row read as a vector of length `N`. -/
def rowVec (R : (⟨2, ![1, N]⟩ : Shape).Idx → EReal) : (⟨1, ![N]⟩ : Shape).Idx → EReal :=
  fun j => R (ix2 (0 : Fin 1) (j 0))

/-- A vector of length `N` reshaped to a `1 × N` row and read back as a vector is the vector. -/
theorem rowVec_reshape (b : (⟨1, ![N]⟩ : Shape).Idx → EReal) (hc : (⟨1, ![N]⟩ : Shape).ShapeCasts ⟨2, ![1, N]⟩) :
    rowVec (shapeCast ⟨2, ![1, N]⟩ b hc) = b := by
  funext j
  refine (shapeCast_addUnit_apply ![N] b hc (ix2 (0 : Fin 1) (j 0))).trans (congrArg b ?_)
  funext a
  match a with
  | ⟨0, _⟩ => rfl

/-- A `1 × N` row repeated down `M` rows reads, at `(p, q)`, the row at `q`. -/
theorem rowRepeat_apply {α : Type} (R : (⟨2, ![1, N]⟩ : Shape).Idx → α)
    (hc : (⟨2, ![1, N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ R hc) hb (ix2 p q) = R (ix2 (0 : Fin 1) q) := by
  rw [shapeCast_self]
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- The product into zero plus the repeated bias row is the linear layer of the block, the weight and the row. -/
theorem linLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr)
      = lin x0 x1 (rowVec x2) := by
  subst hd
  funext i
  obtain ⟨p, q, rfl⟩ : ∃ (p : Fin M) (q : Fin N), i = ix2 p q := ⟨i 0, i 1, eq_ix2 i⟩
  rw [addf_apply, rowRepeat_apply, Cert.Lib.PlainDot.matmul_zero_apply]
  rfl

/-- The same followed by the maximum with a splat zero is the positive part of the linear layer. -/
theorem reluLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    maximumf (addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr))
      (broadcast ⟨2, ![M, N]⟩ (Scalar.ofBits (F := Ideal) .f32 0x00000000#32))
      = relu (lin x0 x1 (rowVec x2)) := by
  rw [linLayer_eq d hd x0 x1 x2 hb0 hb1 h2 hbr]
  funext i
  rw [maximumf_apply, broadcast_apply]
  show max _ (Ideal.ofBits .f32 0x00000000#32) = _
  rw [Ideal.ofBits_zero_f32]
  rfl

/-- The first layer on a block of rows is the first layer of the whole array at those rows: entry `j` of the block's
    layer is entry `i` of the array's when the block's row `j 0` is the array's row `i 0` and the columns agree. -/
theorem layer_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    relu (lin x0 x1 (rowVec x2)) j = relu (lin A W (rowVec R)) i := by
  show max ((∑ k : Fin K, x0 (ix2 (j 0) k) * x1 (ix2 k (j 1))) + x2 (ix2 (0 : Fin 1) (j 1))) 0
    = max ((∑ k : Fin K, A (ix2 (i 0) k) * W (ix2 k (i 1))) + R (ix2 (0 : Fin 1) (i 1))) 0
  rw [h2]
  exact congrArg (fun z => max (z + R (ix2 (0 : Fin 1) (i 1))) 0) (Finset.sum_congr rfl fun k _ => by rw [h0 k, h1 k])

/-- The two layers on a block of rows are the two layers of the whole array at those rows. -/
theorem head_block (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (W : (⟨2, ![K, N]⟩ : Shape).Idx → EReal) (R : (⟨2, ![1, N]⟩ : Shape).Idx → EReal)
    (W' : (⟨2, ![N, N']⟩ : Shape).Idx → EReal) (R' : (⟨2, ![1, N']⟩ : Shape).Idx → EReal)
    (j : (⟨2, ![m, N']⟩ : Shape).Idx) (i : (⟨2, ![M, N']⟩ : Shape).Idx)
    (h0 : ∀ k : Fin K, x0 (ix2 (j 0) k) = A (ix2 (i 0) k)) (h1 : x1 = W) (h2 : x2 = R)
    (h3 : ∀ k : Fin N, x3 (ix2 k (j 1)) = W' (ix2 k (i 1)))
    (h4 : x4 (ix2 (0 : Fin 1) (j 1)) = R' (ix2 (0 : Fin 1) (i 1))) :
    lin (relu (lin x0 x1 (rowVec x2))) x3 (rowVec x4) j = lin (relu (lin A W (rowVec R))) W' (rowVec R') i := by
  subst h1
  subst h2
  show (∑ k : Fin N, relu (lin x0 x1 (rowVec x2)) (ix2 (j 0) k) * x3 (ix2 k (j 1))) + x4 (ix2 (0 : Fin 1) (j 1))
    = (∑ k : Fin N, relu (lin A x1 (rowVec x2)) (ix2 (i 0) k) * W' (ix2 k (i 1))) + R' (ix2 (0 : Fin 1) (i 1))
  rw [h4]
  refine congrArg (fun z => z + R' (ix2 (0 : Fin 1) (i 1))) (Finset.sum_congr rfl fun k _ => ?_)
  rw [h3 k]
  exact congrArg (fun z => z * W' (ix2 k (i 1)))
    (layer_block x0 x1 x2 A x1 x2 (ix2 (j 0) k) (ix2 (i 0) k) h0 (fun _ => rfl) rfl)

end Cert.Lib.RowLayers

end
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«174829_j61040075211351_1_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibLogSoftmax.lean ====
/-
  Dense layers with a positive part and the row-wise log-softmax, as whole-array functions on the extended reals.

  A matrix with `M` rows and `N` columns is a function of its two coordinates. A dense block is two linear
  layers, each followed by the positive part: `mlp z Wa ba Wb bb = relu (relu (z · Wa + ba) · Wb + bb)`. A classifier head
  is a linear layer followed by the logarithm of the softmax along each row, in the numerically shifted
  form: with `mx p` the largest entry of row `p` (folded from the word of −∞),
  `logSoftmax L (p, q) = (L (p, q) − mx p) − log (∑ k, exp (L (p, k) − mx p))`.

  Every entry of these functions depends on one row of the first operand only. So a block of rows of a taller array,
  pushed through the same layers, computes the entries of the whole array's layers at those rows: `mlp_rows`,
  `logSoftmax_rows`, `head_rows`.

  Also here: how a vector unit spells the row-wise shifted log-softmax (a lane maximum and a lane sum kept as columns
  and spread back over the lanes), read at an entry.
-/
import Idealize.ShloMosaic.Lib.ValueIdx
import Idealize.ShloMosaic.Lib.Pipeline.Value
import Idealize.ShloMosaic.PureOps.Ideal.Laws
import proofs.«174829_j61040075211351_1_alg».proof.Proof.LibRowLayers
import proofs.«174829_j61040075211351_1_alg».proof.Proof.LibBlockOps
import proofs.«174829_j61040075211351_1_alg».proof.Proof.LibColumn

noncomputable section

open scoped BigOperators

namespace Cert.Lib.LogSoftmax

open Idealize.ShloMosaic Idealize.ShloMosaic.ValueIdx Cert.Lib.BiasDot Cert.Lib.Dense Cert.Lib.RowLayers

variable {m M K N N' : Nat}

/-- Two linear layers, each followed by the positive part. -/
def mlp (z : (⟨2, ![M, K]⟩ : Shape).Idx → EReal) (Wa : (⟨2, ![K, N]⟩ : Shape).Idx → EReal)
    (ba : (⟨1, ![N]⟩ : Shape).Idx → EReal) (Wb : (⟨2, ![N, N']⟩ : Shape).Idx → EReal)
    (bb : (⟨1, ![N']⟩ : Shape).Idx → EReal) : (⟨2, ![M, N']⟩ : Shape).Idx → EReal :=
  relu (lin (relu (lin z Wa ba)) Wb bb)

/-- The dense block on a block of rows is the dense block of the whole array at those rows. -/
theorem mlp_rows (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (p : Fin m) (p' : Fin M) (q : Fin N')
    (h0 : ∀ k : Fin K, x0 (ix2 p k) = A (ix2 p' k)) :
    mlp x0 x1 (rowVec x2) x3 (rowVec x4) (ix2 p q) = mlp A x1 (rowVec x2) x3 (rowVec x4) (ix2 p' q) :=
  congrArg (fun z => max z 0)
    (head_block x0 x1 x2 x3 x4 A x1 x2 x3 x4 (ix2 p q) (ix2 p' q) h0 rfl rfl (fun _ => rfl) rfl)

/-- The dense block on a block of rows, at an index `j` of the block, is the dense block of the whole array at an index
    `i` in the same column whose row the block's row `j 0` is. -/
theorem mlp_at (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (j : (⟨2, ![m, N']⟩ : Shape).Idx) (i : (⟨2, ![M, N']⟩ : Shape).Idx)
    (h0 : ∀ k : Fin K, x0 (ix2 (j 0) k) = A (ix2 (i 0) k)) (hq : (j 1).val = (i 1).val) :
    mlp x0 x1 (rowVec x2) x3 (rowVec x4) j = mlp A x1 (rowVec x2) x3 (rowVec x4) i := by
  have e : j 1 = i 1 := Fin.ext hq
  exact congrArg (fun z => max z 0)
    (head_block x0 x1 x2 x3 x4 A x1 x2 x3 x4 j i h0 rfl rfl (fun k => by rw [e]) (by rw [e]))

/-- The largest entry of row `p`: the fold of `max` over the row, from the value of the word of −∞. -/
def rowMax (L : (⟨2, ![M, N]⟩ : Shape).Idx → EReal) (p : Fin M) : EReal :=
  (Finset.univ : Finset (Fin N)).fold max (Ideal.ofBits .f32 0xFF800000#32) (fun k => L (ix2 p k))

/-- The logarithm of the softmax along each row, shifted by the row's largest entry. -/
def logSoftmax (L : (⟨2, ![M, N]⟩ : Shape).Idx → EReal) : (⟨2, ![M, N]⟩ : Shape).Idx → EReal :=
  fun i => (L i - rowMax L (i 0)) - Ideal.log (∑ k : Fin N, Ideal.exp (L (ix2 (i 0) k) - rowMax L (i 0)))

theorem logSoftmax_apply (L : (⟨2, ![M, N]⟩ : Shape).Idx → EReal) (p : Fin M) (q : Fin N) :
    logSoftmax L (ix2 p q) = (L (ix2 p q) - rowMax L p) - Ideal.log (∑ k : Fin N, Ideal.exp (L (ix2 p k) - rowMax L p)) := rfl

/-- A row of the log-softmax depends on that row only. -/
theorem logSoftmax_rows (x : (⟨2, ![m, N]⟩ : Shape).Idx → EReal) (A : (⟨2, ![M, N]⟩ : Shape).Idx → EReal)
    (p : Fin m) (p' : Fin M) (q : Fin N) (h : ∀ k : Fin N, x (ix2 p k) = A (ix2 p' k)) :
    logSoftmax x (ix2 p q) = logSoftmax A (ix2 p' q) := by
  have hm : rowMax x p = rowMax A p' :=
    congrArg (fun f => (Finset.univ : Finset (Fin N)).fold max (Ideal.ofBits .f32 0xFF800000#32) f) (funext h)
  rw [logSoftmax_apply, logSoftmax_apply, hm, h q]
  exact congrArg (fun s => (A (ix2 p' q) - rowMax A p') - Ideal.log s) (Finset.sum_congr rfl fun k _ => by rw [h k])

/-- The last layer: a linear layer, then the log-softmax along each row. -/
def head (h : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  logSoftmax (lin h W b)

/-- The last layer on a block of rows is the last layer of the whole array at those rows. -/
theorem head_rows (x0 : (⟨2, ![m, K]⟩ : Shape).Idx → EReal) (x1 : (⟨2, ![K, N]⟩ : Shape).Idx → EReal)
    (b : (⟨1, ![N]⟩ : Shape).Idx → EReal) (A : (⟨2, ![M, K]⟩ : Shape).Idx → EReal) (p : Fin m) (p' : Fin M) (q : Fin N)
    (h0 : ∀ k : Fin K, x0 (ix2 p k) = A (ix2 p' k)) :
    head x0 x1 b (ix2 p q) = head A x1 b (ix2 p' q) := by
  refine logSoftmax_rows (lin x0 x1 b) (lin A x1 b) p p' q (fun k => ?_)
  rw [lin_apply, lin_apply]
  exact congrArg (fun z => z + b (ix1 k)) (Finset.sum_congr rfl fun k' _ => by rw [h0 k'])

/-- The last layer on a block of rows, at an index `j` of the block, is the last layer of the whole array at an index `i`
    in the same column whose row the block's row `j 0` is. -/
theorem head_at (x0 : (⟨2, ![m, K]⟩ : Shape).Idx → EReal) (x1 : (⟨2, ![K, N]⟩ : Shape).Idx → EReal)
    (b : (⟨1, ![N]⟩ : Shape).Idx → EReal) (A : (⟨2, ![M, K]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (hq : (j 1).val = (i 1).val) :
    head x0 x1 b j = head A x1 b i := by
  have e : j 1 = i 1 := Fin.ext hq
  refine (congrArg (head x0 x1 b) (eq_ix2 j)).trans ((head_rows x0 x1 b A (j 0) (i 0) (j 1) h0).trans ?_)
  refine congrArg (head A x1 b) ?_
  rw [e]
  exact (eq_ix2 i).symm

/-! ## The vector unit's spelling -/

/-- A `1 × N` row repeated down `M` rows reads, at `(p, q)`, the row at `q`. -/
theorem rowSpread_apply {α : Type} (R : (⟨2, ![1, N]⟩ : Shape).Idx → α)
    (hb : (⟨2, ![1, N]⟩ : Shape).Broadcasts ⟨2, ![M, N]⟩) (p : Fin M) (q : Fin N) :
    broadcastTo ⟨2, ![M, N]⟩ R hb (ix2 p q) = R (ix2 (0 : Fin 1) q) := by
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- A product into zero plus a loaded `1 × N` bias row repeated down the rows is the linear layer, whatever formats the
    two operands were narrowed to. -/
theorem lin_body {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (b : FVec Ideal ⟨2, ![1, N]⟩ .f32)
    (hbr : (⟨2, ![1, N]⟩ : Shape).Broadcasts ⟨2, ![M, N]⟩) :
    addf (FloatOps.matmul d none l r (constant ⟨2, ![M, N]⟩ .f32 0x00000000#32)) (broadcastTo ⟨2, ![M, N]⟩ b hbr)
      = lin l r (rowVec b) := by
  subst hd
  funext i
  obtain ⟨p, q, rfl⟩ : ∃ (p : Fin M) (q : Fin N), i = ix2 p q := ⟨i 0, i 1, eq_ix2 i⟩
  rw [addf_apply, rowSpread_apply, Cert.Lib.PlainDot.matmul_zero_apply]
  rfl

/-- The maximum with a splat zero is the positive part. -/
theorem relu_body {s : Shape} (X : FVec Ideal s .f32) :
    maximumf X (broadcast s (Scalar.ofBits (F := Ideal) .f32 0x00000000#32)) = relu X := by
  funext i
  rw [maximumf_apply, broadcast_apply]
  show max _ (Ideal.ofBits .f32 0x00000000#32) = _
  rw [Ideal.ofBits_zero_f32]
  rfl

/-- The row-wise shifted log-softmax as a vector unit computes it: the lane maximum and the lane sum of exponentials are
    kept as `M × 1` columns and spread back over the `N` lanes. -/
theorem logSoftmax_body (L : FVec Ideal ⟨2, ![M, N]⟩ .f32) (hr : (⟨2, ![M, N]⟩ : Shape).Reduces [1] ⟨1, ![M]⟩)
    (hφ : FKind.Formats .f32) (hm : (0xFF800000#32 : BitVec FTy.f32.bits) = FKind.maximumf.neutral .f32 hφ)
    (ha : (0x00000000#32 : BitVec FTy.f32.bits) = FKind.add.neutral .f32 hφ)
    (hc : (⟨1, ![M]⟩ : Shape).ShapeCasts ⟨2, ![M, 1]⟩) (hb : (⟨2, ![M, 1]⟩ : Shape).Broadcasts ⟨2, ![M, N]⟩) :
    subf (subf L (broadcastTo ⟨2, ![M, N]⟩ (shapeCast ⟨2, ![M, 1]⟩ (multiReduction .maximumf [1] ⟨1, ![M]⟩ L 0xFF800000#32 hr hφ hm) hc) hb))
      (broadcastTo ⟨2, ![M, N]⟩ (log (shapeCast ⟨2, ![M, 1]⟩
        (multiReduction .add [1] ⟨1, ![M]⟩
          (exp (subf L (broadcastTo ⟨2, ![M, N]⟩ (shapeCast ⟨2, ![M, 1]⟩ (multiReduction .maximumf [1] ⟨1, ![M]⟩ L 0xFF800000#32 hr hφ hm) hc) hb)))
          0x00000000#32 hr hφ ha) hc)) hb)
      = logSoftmax L := by
  have hmax : ∀ (p : Fin M) (q : Fin N),
      broadcastTo ⟨2, ![M, N]⟩ (shapeCast ⟨2, ![M, 1]⟩ (multiReduction .maximumf [1] ⟨1, ![M]⟩ L 0xFF800000#32 hr hφ hm) hc) hb (ix2 p q)
        = rowMax L p := by
    intro p q
    rw [Cert.Lib.BlockOps.colSpread_apply, Cert.Lib.BlockOps.rowMax_apply]
    rfl
  funext i
  obtain ⟨p, q, rfl⟩ : ∃ (p : Fin M) (q : Fin N), i = ix2 p q := ⟨i 0, i 1, eq_ix2 i⟩
  rw [subf_apply, subf_apply, hmax, Cert.Lib.Column.colBroadcast_apply, logSoftmax_apply]
  refine congrArg (fun s => (L (ix2 p q) - rowMax L p) - s) ?_
  show FloatOps.log (shapeCast ⟨2, ![M, 1]⟩ _ hc (ix2 p (0 : Fin 1))) = _
  rw [Cert.Lib.Column.col_apply, Cert.Lib.BlockOps.rowSum_apply]
  refine congrArg Ideal.log (Finset.sum_congr rfl fun k _ => ?_)
  show FloatOps.exp (subf L _ (ix2 p k)) = _
  rw [subf_apply, hmax]
  rfl

end Cert.Lib.LogSoftmax

end
-- ==== Proof.Bodies.lean ====
/-
  What the three kernel bodies compute on one block of rows, at the ideal values.

  The two dense-block kernels load a block of 2000 rows, two 128 × 128 weights and two 1 × 128 bias rows, narrow the
  block to a shorter float format (the identity on extended reals), and store
  `relu (relu (x · Wa + ba) · Wb + bb)`: the payload is `mlp` of the loaded blocks. The last kernel loads a block of
  rows, the 128 × 64 weight and the 1 × 64 bias row and stores the row-wise log-softmax of `x · W + b`: its
  payload is `head` of the loaded blocks.
-/
import proofs.«174829_j61040075211351_1_alg».proof.Proof.Gen.KernelIdeal.Skeleton
import proofs.«174829_j61040075211351_1_alg».proof.Proof.LibLogSoftmax

noncomputable section

namespace Cert.KernelIdeal.Body

open Cert.KernelIdeal Cert.KernelIdeal.Gen Idealize.ShloMosaic Idealize.ShloMosaic.ValueIdx
open Cert.Lib.BiasDot Cert.Lib.Dense Cert.Lib.RowLayers Cert.Lib.LogSoftmax

/-- The first dense-block kernel's stored value is the dense block of its loaded blocks. -/
theorem pay0_eq (x0 : FVec Ideal S2000x128 .f32) (x1 : FVec Ideal S128x128 .bf16) (x2 : FVec Ideal S1x128 .f32)
    (x3 : FVec Ideal S128x128 .bf16) (x4 : FVec Ideal S1x128 .f32) :
    k0_pay1 (F := Ideal) x0 x1 x2 x3 x4 = mlp x0 x1 (rowVec x2) x3 (rowVec x4) := by
  unfold k0_pay1
  dsimp only
  simp only [shapeCast_self]
  rw [lin_body dot_S2000x128_S128x128_S2000x128_1_0_0_1_n_n rfl, relu_body,
    lin_body dot_S2000x128_S128x128_S2000x128_1_0_0_1_n_n rfl, relu_body]
  rfl

/-- The second dense-block kernel's stored value is the dense block of its loaded blocks. -/
theorem pay1_eq (x0 : FVec Ideal S2000x128 .f32) (x1 : FVec Ideal S128x128 .bf16) (x2 : FVec Ideal S1x128 .f32)
    (x3 : FVec Ideal S128x128 .bf16) (x4 : FVec Ideal S1x128 .f32) :
    k1_pay1 (F := Ideal) x0 x1 x2 x3 x4 = mlp x0 x1 (rowVec x2) x3 (rowVec x4) := by
  unfold k1_pay1
  dsimp only
  simp only [shapeCast_self]
  rw [lin_body dot_S2000x128_S128x128_S2000x128_1_0_0_1_n_n rfl, relu_body,
    lin_body dot_S2000x128_S128x128_S2000x128_1_0_0_1_n_n rfl, relu_body]
  rfl

/-- The last kernel's stored value is the last layer of its loaded blocks. -/
theorem pay2_eq (x0 : FVec Ideal S2000x128 .f32) (x1 : FVec Ideal S128x64 .bf16) (x2 : FVec Ideal S1x64 .f32) :
    k2_pay1 (F := Ideal) x0 x1 x2 = head x0 x1 (rowVec x2) := by
  unfold k2_pay1
  dsimp only
  simp only [shapeCast_self]
  rw [lin_body dot_S2000x128_S128x64_S2000x64_1_0_0_1_n_n rfl]
  exact logSoftmax_body _ reduces_S2000x64_S2000 _ _ _ shapeCasts_S2000_S2000x1 broadcasts_S2000x1_S2000x64

end Cert.KernelIdeal.Body

end
-- ==== Proof.Region0.lean ====
/-
  Kernel region 0: the dense block over the node table, one block of 2000 rows per grid point.

  Point `t` of the 25 loads rows `2000 t … 2000 t + 1999` of the table, the two 128 × 128 weights and the two 1 × 128 bias
  rows whole, and writes the dense block of what it loaded to the same rows of the output array. An entry of the dense
  block depends on one row of the table only, so block `t` of the output is block `t` of the dense block of the whole
  table; the 25 blocks cover the 50000 rows, and the output array ends holding `mlp` of the arrays the region found.
-/
import proofs.«174829_j61040075211351_1_alg».proof.Proof.Gen.KernelIdeal.Frame
import proofs.«174829_j61040075211351_1_alg».proof.Proof.Bodies
import Idealize.ShloMosaic.Lib.Pipeline.Value

noncomputable section

namespace Cert.KernelIdeal.Region0

open Cert.KernelIdeal Cert.KernelIdeal.Gen Idealize.ShloMosaic Idealize.ShloMosaic.TcCoe Idealize.ShloMosaic.ValueIdx
open Idealize.ShloMosaic.Pipeline (Dat)
open Cert.Lib.RowLayers Cert.Lib.LogSoftmax

variable (V : (c : Dev nD) → (b : Ref sig .tc) → Buf (Elt Ideal) ((c : Thread nD τ).loc b))

theorem hz : (![0, 0] : Fin 2 → Nat) = fun _ => 0 := funext fun a => by fin_cases a <;> rfl

/-- What the region's output array ends holding: the dense block of the arrays the region found. -/
def G (c : Dev nD) : S50000x128.Idx → EReal :=
  mlp (V c main_v22) (V c main_v4) (rowVec (V c main_v23)) (V c main_v5) (rowVec (V c main_v24))

/-- The index maps over the grid: the table's and the output's block row is the point's number, every other block index
    is zero. -/
theorem idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- A window whose one block is its whole array reads the array. -/
theorem blk1_eq (c : Dev nD) (t : Fin cfg0.N) : iblk0 V c 1 t = V c main_v4 := by
  obtain ⟨-, -, -, -, e0, e1, -⟩ := idx_facts t
  funext y
  show V c main_v4 (((cfg0.win 1).blk t).view.emb y) = V c main_v4 y
  refine congrArg (V c main_v4) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

theorem blk2_eq (c : Dev nD) (t : Fin cfg0.N) : iblk0 V c 2 t = V c main_v23 := by
  obtain ⟨-, -, -, -, -, -, e0, e1, -⟩ := idx_facts t
  funext y
  show V c main_v23 (((cfg0.win 2).blk t).view.emb y) = V c main_v23 y
  refine congrArg (V c main_v23) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

theorem blk3_eq (c : Dev nD) (t : Fin cfg0.N) : iblk0 V c 3 t = V c main_v5 := by
  obtain ⟨-, -, -, -, -, -, -, -, e0, e1, -⟩ := idx_facts t
  funext y
  show V c main_v5 (((cfg0.win 3).blk t).view.emb y) = V c main_v5 y
  refine congrArg (V c main_v5) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem blk4_eq (c : Dev nD) (t : Fin cfg0.N) : iblk0 V c 4 t = V c main_v24 := by
  obtain ⟨-, -, -, -, -, -, -, -, -, -, e0, e1⟩ := idx_facts t
  funext y
  show V c main_v24 (((cfg0.win 4).blk t).view.emb y) = V c main_v24 y
  refine congrArg (V c main_v24) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- What point `t` writes back is block `t` of the dense block of the whole table. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  rw [Cert.KernelIdeal.Body.pay0_eq, blk1_eq, blk2_eq, blk3_eq, blk4_eq]
  obtain ⟨e00, e01, e50, e51, -⟩ := idx_facts t
  funext j
  show mlp (iblk0 V c 0 t) (V c main_v4) (rowVec (V c main_v23)) (V c main_v5) (rowVec (V c main_v24)) j
    = mlp (V c main_v22) (V c main_v4) (rowVec (V c main_v23)) (V c main_v5) (rowVec (V c main_v24)) (((cfg0.win 5).blk t).view.emb j)
  refine mlp_at _ _ _ _ _ _ j _ (fun k => ?_) ?_
  · show V c main_v22 (((cfg0.win 0).blk t).view.emb (ix2 (j 0) k)) = V c main_v22 (ix2 ((((cfg0.win 5).blk t).view.emb j) 0) k)
    refine congrArg (V c main_v22) (funext fun a => Fin.ext ?_)
    match a with
    | ⟨0, _⟩ => show win0_0.index t (0 : Fin 2) * 2000 + 1 * (j 0).val = win0_5.index t (0 : Fin 2) * 2000 + 1 * (j 0).val; rw [e00, e50]
    | ⟨1, _⟩ => show win0_0.index t (1 : Fin 2) * 128 + 1 * k.val = k.val; rw [e01]; omega
  · show (j 1).val = win0_5.index t (1 : Fin 2) * 128 + 1 * (j 1).val
    rw [e51]; omega

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v25).slice (win0_5.rect t)).set ↔ _
  rw [View.set_slice_whole, Rect.mem_set_unit]
  exact Iff.rfl

/-- The output array after the region: the dense block of the arrays the region found. -/
theorem final (c : Dev nD) : (dat0 V c).arrAt 5 cfg0.N = G V c :=
  (dat0 V c).arrAt_eq_of_cover 5 (G V c) (fun t _ => flushed_eq V c t) fun i => by
    have hi0 : (i 0).val < 50000 := (i 0).isLt
    have hi1 : (i 1).val < 128 := (i 1).isLt
    have hN : cfg0.N = 25 := N_0
    refine ⟨⟨(i 0).val / 2000, by rw [hN]; omega⟩, flush0_5 _, ?_⟩
    rw [mem_blk]
    obtain ⟨-, -, e50, e51, -⟩ := idx_facts ⟨(i 0).val / 2000, by rw [hN]; omega⟩
    intro a
    match a with
    | ⟨0, _⟩ =>
      show win0_5.index _ (0 : Fin 2) * 2000 ≤ (i 0).val ∧ (i 0).val < win0_5.index _ (0 : Fin 2) * 2000 + 2000
      rw [e50]
      show (i 0).val / 2000 * 2000 ≤ (i 0).val ∧ (i 0).val < (i 0).val / 2000 * 2000 + 2000
      omega
    | ⟨1, _⟩ =>
      show win0_5.index _ (1 : Fin 2) * 128 ≤ (i 1).val ∧ (i 1).val < win0_5.index _ (1 : Fin 2) * 128 + 128
      rw [e51]; omega

end Cert.KernelIdeal.Region0

end
-- ==== Proof.Region1.lean ====
/-
  Kernel region 1: the dense block over the node table, one block of 2000 rows per grid point.

  Point `t` of the 25 loads rows `2000 t … 2000 t + 1999` of the table, the two 128 × 128 weights and the two 1 × 128 bias
  rows whole, and writes the dense block of what it loaded to the same rows of the output array. An entry of the dense
  block depends on one row of the table only, so block `t` of the output is block `t` of the dense block of the whole
  table; the 25 blocks cover the 50000 rows, and the output array ends holding `mlp` of the arrays the region found.
-/
import proofs.«174829_j61040075211351_1_alg».proof.Proof.Gen.KernelIdeal.Frame
import proofs.«174829_j61040075211351_1_alg».proof.Proof.Bodies
import Idealize.ShloMosaic.Lib.Pipeline.Value

noncomputable section

namespace Cert.KernelIdeal.Region1

open Cert.KernelIdeal Cert.KernelIdeal.Gen Idealize.ShloMosaic Idealize.ShloMosaic.TcCoe Idealize.ShloMosaic.ValueIdx
open Idealize.ShloMosaic.Pipeline (Dat)
open Cert.Lib.RowLayers Cert.Lib.LogSoftmax

variable (V : (c : Dev nD) → (b : Ref sig .tc) → Buf (Elt Ideal) ((c : Thread nD τ).loc b))

theorem hz : (![0, 0] : Fin 2 → Nat) = fun _ => 0 := funext fun a => by fin_cases a <;> rfl

/-- What the region's output array ends holding: the dense block of the arrays the region found. -/
def G (c : Dev nD) : S50000x128.Idx → EReal :=
  mlp (V c main_v39) (V c main_v6) (rowVec (V c main_v40)) (V c main_v7) (rowVec (V c main_v41))

/-- The index maps over the grid: the table's and the output's block row is the point's number, every other block index
    is zero. -/
theorem idx_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- A window whose one block is its whole array reads the array. -/
theorem blk1_eq (c : Dev nD) (t : Fin cfg1.N) : iblk1 V c 1 t = V c main_v6 := by
  obtain ⟨-, -, -, -, e0, e1, -⟩ := idx_facts t
  funext y
  show V c main_v6 (((cfg1.win 1).blk t).view.emb y) = V c main_v6 y
  refine congrArg (V c main_v6) (funext fun a => Fin.ext ?_)
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

theorem blk2_eq (c : Dev nD) (t : Fin cfg1.N) : iblk1 V c 2 t = V c main_v40 := by
  obtain ⟨-, -, -, -, -, -, e0, e1, -⟩ := idx_facts t
  funext y
  show V c main_v40 (((cfg1.win 2).blk t).view.emb y) = V c main_v40 y
  refine congrArg (V c main_v40) (funext fun a => Fin.ext ?_)
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

theorem blk3_eq (c : Dev nD) (t : Fin cfg1.N) : iblk1 V c 3 t = V c main_v7 := by
  obtain ⟨-, -, -, -, -, -, -, -, e0, e1, -⟩ := idx_facts t
  funext y
  show V c main_v7 (((cfg1.win 3).blk t).view.emb y) = V c main_v7 y
  refine congrArg (V c main_v7) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem blk4_eq (c : Dev nD) (t : Fin cfg1.N) : iblk1 V c 4 t = V c main_v41 := by
  obtain ⟨-, -, -, -, -, -, -, -, -, -, e0, e1⟩ := idx_facts t
  funext y
  show V c main_v41 (((cfg1.win 4).blk t).view.emb y) = V c main_v41 y
  refine congrArg (V c main_v41) (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- What point `t` writes back is block `t` of the dense block of the whole table. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  rw [Cert.KernelIdeal.Body.pay1_eq, blk1_eq, blk2_eq, blk3_eq, blk4_eq]
  obtain ⟨e00, e01, e50, e51, -⟩ := idx_facts t
  funext j
  show mlp (iblk1 V c 0 t) (V c main_v6) (rowVec (V c main_v40)) (V c main_v7) (rowVec (V c main_v41)) j
    = mlp (V c main_v39) (V c main_v6) (rowVec (V c main_v40)) (V c main_v7) (rowVec (V c main_v41)) (((cfg1.win 5).blk t).view.emb j)
  refine mlp_at _ _ _ _ _ _ j _ (fun k => ?_) ?_
  · show V c main_v39 (((cfg1.win 0).blk t).view.emb (ix2 (j 0) k)) = V c main_v39 (ix2 ((((cfg1.win 5).blk t).view.emb j) 0) k)
    refine congrArg (V c main_v39) (funext fun a => Fin.ext ?_)
    match a with
    | ⟨0, _⟩ => show win1_0.index t (0 : Fin 2) * 2000 + 1 * (j 0).val = win1_5.index t (0 : Fin 2) * 2000 + 1 * (j 0).val; rw [e00, e50]
    | ⟨1, _⟩ => show win1_0.index t (1 : Fin 2) * 128 + 1 * k.val = k.val; rw [e01]; omega
  · show (j 1).val = win1_5.index t (1 : Fin 2) * 128 + 1 * (j 1).val
    rw [e51]; omega

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v42).slice (win1_5.rect t)).set ↔ _
  rw [View.set_slice_whole, Rect.mem_set_unit]
  exact Iff.rfl

/-- The output array after the region: the dense block of the arrays the region found. -/
theorem final (c : Dev nD) : (dat1 V c).arrAt 5 cfg1.N = G V c :=
  (dat1 V c).arrAt_eq_of_cover 5 (G V c) (fun t _ => flushed_eq V c t) fun i => by
    have hi0 : (i 0).val < 50000 := (i 0).isLt
    have hi1 : (i 1).val < 128 := (i 1).isLt
    have hN : cfg1.N = 25 := N_1
    refine ⟨⟨(i 0).val / 2000, by rw [hN]; omega⟩, flush1_5 _, ?_⟩
    rw [mem_blk]
    obtain ⟨-, -, e50, e51, -⟩ := idx_facts ⟨(i 0).val / 2000, by rw [hN]; omega⟩
    intro a
    match a with
    | ⟨0, _⟩ =>
      show win1_5.index _ (0 : Fin 2) * 2000 ≤ (i 0).val ∧ (i 0).val < win1_5.index _ (0 : Fin 2) * 2000 + 2000
      rw [e50]
      show (i 0).val / 2000 * 2000 ≤ (i 0).val ∧ (i 0).val < (i 0).val / 2000 * 2000 + 2000
      omega
    | ⟨1, _⟩ =>
      show win1_5.index _ (1 : Fin 2) * 128 ≤ (i 1).val ∧ (i 1).val < win1_5.index _ (1 : Fin 2) * 128 + 128
      rw [e51]; omega

end Cert.KernelIdeal.Region1

end
-- ==== Proof.Region2.lean ====
/-
  Kernel region 2: the last layer over the node table, one block of 2000 rows per grid point.

  Point `t` of the 25 loads rows `2000 t … 2000 t + 1999` of the table, the 128 × 64 weight and the 1 × 64 bias row whole,
  and writes the row-wise log-softmax of the linear layer of what it loaded to the same rows of the output array. A row
  of the result depends on that row of the table only, so block `t` of the output is block `t` of the last layer of the
  whole table; the 25 blocks cover the 50000 rows, and the output array ends holding `head` of the arrays the region found.
-/
import proofs.«174829_j61040075211351_1_alg».proof.Proof.Gen.KernelIdeal.Frame
import proofs.«174829_j61040075211351_1_alg».proof.Proof.Bodies
import Idealize.ShloMosaic.Lib.Pipeline.Value

noncomputable section

namespace Cert.KernelIdeal.Region2

open Cert.KernelIdeal Cert.KernelIdeal.Gen Idealize.ShloMosaic Idealize.ShloMosaic.TcCoe Idealize.ShloMosaic.ValueIdx
open Idealize.ShloMosaic.Pipeline (Dat)
open Cert.Lib.RowLayers Cert.Lib.LogSoftmax

variable (V : (c : Dev nD) → (b : Ref sig .tc) → Buf (Elt Ideal) ((c : Thread nD τ).loc b))

theorem hz : (![0, 0] : Fin 2 → Nat) = fun _ => 0 := funext fun a => by fin_cases a <;> rfl

/-- What the region's output array ends holding: the last layer of the arrays the region found. -/
def G (c : Dev nD) : S50000x64.Idx → EReal :=
  head (V c main_v42) (V c main_v8) (rowVec (V c main_v43))

/-- The index maps over the grid: the table's and the output's block row is the point's number, every other block index
    is zero. -/
theorem idx_facts : ∀ t : Fin cfg2.N,
    win2_0.index t (0 : Fin 2) = t.val ∧ win2_0.index t (1 : Fin 2) = 0
    ∧ win2_3.index t (0 : Fin 2) = t.val ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- A window whose one block is its whole array reads the array. -/
theorem blk1_eq (c : Dev nD) (t : Fin cfg2.N) : iblk2 V c 1 t = V c main_v8 := by
  obtain ⟨-, -, -, -, e0, e1, -⟩ := idx_facts t
  funext y
  show V c main_v8 (((cfg2.win 1).blk t).view.emb y) = V c main_v8 y
  refine congrArg (V c main_v8) (funext fun a => Fin.ext ?_)
  match a with
  | ⟨0, _⟩ => show win2_1.index t (0 : Fin 2) * 128 + 1 * (y 0).val = (y 0).val; rw [e0]; omega
  | ⟨1, _⟩ => show win2_1.index t (1 : Fin 2) * 64 + 1 * (y 1).val = (y 1).val; rw [e1]; omega

theorem blk2_eq (c : Dev nD) (t : Fin cfg2.N) : iblk2 V c 2 t = V c main_v43 := by
  obtain ⟨-, -, -, -, -, -, e0, e1⟩ := idx_facts t
  funext y
  show V c main_v43 (((cfg2.win 2).blk t).view.emb y) = V c main_v43 y
  refine congrArg (V c main_v43) (funext fun a => Fin.ext ?_)
  match a with
  | ⟨0, _⟩ => show win2_2.index t (0 : Fin 2) * 1 + 1 * (y 0).val = (y 0).val; rw [e0]; omega
  | ⟨1, _⟩ => show win2_2.index t (1 : Fin 2) * 64 + 1 * (y 1).val = (y 1).val; rw [e1]; omega

/-- What point `t` writes back is block `t` of the last layer of the whole table. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S2000x128) hz, View.ld_unit_zero (S := S128x64) hz, View.ld_unit_zero (S := S1x64) hz]
  rw [Cert.KernelIdeal.Body.pay2_eq, blk1_eq, blk2_eq]
  obtain ⟨e00, e01, e30, e31, -⟩ := idx_facts t
  funext j
  show head (iblk2 V c 0 t) (V c main_v8) (rowVec (V c main_v43)) j
    = head (V c main_v42) (V c main_v8) (rowVec (V c main_v43)) (((cfg2.win 3).blk t).view.emb j)
  refine head_at _ _ _ _ j _ (fun k => ?_) ?_
  · show V c main_v42 (((cfg2.win 0).blk t).view.emb (ix2 (j 0) k)) = V c main_v42 (ix2 ((((cfg2.win 3).blk t).view.emb j) 0) k)
    refine congrArg (V c main_v42) (funext fun a => Fin.ext ?_)
    match a with
    | ⟨0, _⟩ => show win2_0.index t (0 : Fin 2) * 2000 + 1 * (j 0).val = win2_3.index t (0 : Fin 2) * 2000 + 1 * (j 0).val; rw [e00, e30]
    | ⟨1, _⟩ => show win2_0.index t (1 : Fin 2) * 128 + 1 * k.val = k.val; rw [e01]; omega
  · show (j 1).val = win2_3.index t (1 : Fin 2) * 64 + 1 * (j 1).val
    rw [e31]; omega

/-- An index of the output array is in point `t`'s block iff each coordinate is in the block's range on its axis. -/
theorem mem_blk (t : Fin cfg2.N) (i : S50000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v44).slice (win2_3.rect t)).set ↔ _
  rw [View.set_slice_whole, Rect.mem_set_unit]
  exact Iff.rfl

/-- The output array after the region: the last layer of the arrays the region found. -/
theorem final (c : Dev nD) : (dat2 V c).arrAt 3 cfg2.N = G V c :=
  (dat2 V c).arrAt_eq_of_cover 3 (G V c) (fun t _ => flushed_eq V c t) fun i => by
    have hi0 : (i 0).val < 50000 := (i 0).isLt
    have hi1 : (i 1).val < 64 := (i 1).isLt
    have hN : cfg2.N = 25 := N_2
    refine ⟨⟨(i 0).val / 2000, by rw [hN]; omega⟩, flush2_3 _, ?_⟩
    rw [mem_blk]
    obtain ⟨-, -, e30, e31, -⟩ := idx_facts ⟨(i 0).val / 2000, by rw [hN]; omega⟩
    intro a
    match a with
    | ⟨0, _⟩ =>
      show win2_3.index _ (0 : Fin 2) * 2000 ≤ (i 0).val ∧ (i 0).val < win2_3.index _ (0 : Fin 2) * 2000 + 2000
      rw [e30]
      show (i 0).val / 2000 * 2000 ≤ (i 0).val ∧ (i 0).val < (i 0).val / 2000 * 2000 + 2000
      omega
    | ⟨1, _⟩ =>
      show win2_3.index _ (1 : Fin 2) * 64 ≤ (i 1).val ∧ (i 1).val < win2_3.index _ (1 : Fin 2) * 64 + 64
      rw [e31]; omega

end Cert.KernelIdeal.Region2

end
-- ==== Proof.Net.lean ====
/-
  The whole network as one function of its arguments, on the extended reals.

  Two rounds of neighbour aggregation, each followed by the dense block, then the last layer. A round takes the node
  table `h` (50000 rows of 128 features), the edges' source and target node numbers and a scalar `eps`, and gives
  `(1 + eps) · h + S`, where `S` adds row `src e` of `h` (a negative number counted from the end of the table) into row
  `dst e`, over all 800000 edges `e`. Both programs compute this round with the same host operations — a gather, a
  scatter-add into zeros, a scalar broadcast, a product and a sum — so it is kept here as that composition and never
  opened: `agg`. The source and target numbers are rows 0 and 1 of the 2 × 800000 edge table: `srcOf`, `dstOf`.

  The operations' dimension records and shape facts are parameters, because each printed program states its own.
-/
import Idealize.ShloMosaic.Lib.ValueIdx
import Idealize.ShloMosaic.Lib.Pipeline.Value
import Idealize.ShloMosaic.PureOps.Ideal.Laws
import proofs.«174829_j61040075211351_1_alg».proof.Proof.LibLogSoftmax

noncomputable section

namespace Cert.Gin

open Idealize.ShloMosaic Idealize.ShloMosaic.ValueIdx Cert.Lib.LogSoftmax

/-- The node table, the edge list, the edge list as a column, one gathered row per edge, a scalar, the edge table and
    one of its rows. -/
abbrev Tab : Shape := ⟨2, ![50000, 128]⟩
abbrev Edges : Shape := ⟨1, ![800000]⟩
abbrev EdgeCol : Shape := ⟨2, ![800000, 1]⟩
abbrev EdgeRows : Shape := ⟨2, ![800000, 128]⟩
abbrev Sc : Shape := ⟨0, ![]⟩
abbrev EdgeTab : Shape := ⟨2, ![2, 800000]⟩
abbrev EdgeRow : Shape := ⟨2, ![1, 800000]⟩

/-- Row 0 of the edge table: the source node of each edge. -/
def srcOf (hs : EdgeTab.Slices ![0, 0] EdgeRow) (hc : EdgeRow.ShapeCasts Edges) (ei : IVec EdgeTab 32) : IVec Edges 32 :=
  shapeCast Edges (extractStridedSlice EdgeRow ![0, 0] ei hs) hc

/-- Row 1 of the edge table: the target node of each edge. -/
def dstOf (hs : EdgeTab.Slices ![1, 0] EdgeRow) (hc : EdgeRow.ShapeCasts Edges) (ei : IVec EdgeTab 32) : IVec Edges 32 :=
  shapeCast Edges (extractStridedSlice EdgeRow ![1, 0] ei hs) hc

/-- One round of aggregation, `(1 + eps) · h + (the rows of h at src, added into the rows at dst)`, as the host computes it. -/
def agg (gd : GatherDims Tab EdgeCol EdgeRows) (sd : ScatterDims Tab EdgeCol EdgeRows)
    (hbE : Sc.BroadcastsInDim Edges ![]) (hbC : Edges.BroadcastsInDim EdgeCol ![0]) (hbT : Sc.BroadcastsInDim Tab ![])
    (h : FVec Ideal Tab .f32) (src dst : IVec Edges 32) (eps : FVec Ideal Sc .f32) : FVec Ideal Tab .f32 :=
  addf (mulf (broadcastInDim Tab ![] hbT (addf (constant (F := Ideal) Sc .f32 0x3F800000#32) eps)) h)
    (Host.scatterAdd sd (broadcastInDim Tab ![] hbT (constant (F := Ideal) Sc .f32 0x00000000#32))
      (broadcastInDim EdgeCol ![0] hbC dst)
      (Host.gather gd h (broadcastInDim EdgeCol ![0] hbC
        (select (cmpi .slt src (broadcastInDim Edges ![] hbE (constantI Sc 32 0#32)))
          (addi src (broadcastInDim Edges ![] hbE (constantI Sc 32 50000#32))) src))))

/-- The network: two rounds of aggregation and dense block, then the last layer. -/
def net (gd : GatherDims Tab EdgeCol EdgeRows) (sd : ScatterDims Tab EdgeCol EdgeRows)
    (hbE : Sc.BroadcastsInDim Edges ![]) (hbC : Edges.BroadcastsInDim EdgeCol ![0]) (hbT : Sc.BroadcastsInDim Tab ![])
    (x : FVec Ideal Tab .f32) (src dst : IVec Edges 32) (e1 : FVec Ideal Sc .f32)
    (W11 : FVec Ideal ⟨2, ![128, 128]⟩ .f32) (b11 : FVec Ideal ⟨1, ![128]⟩ .f32)
    (W12 : FVec Ideal ⟨2, ![128, 128]⟩ .f32) (b12 : FVec Ideal ⟨1, ![128]⟩ .f32) (e2 : FVec Ideal Sc .f32)
    (W21 : FVec Ideal ⟨2, ![128, 128]⟩ .f32) (b21 : FVec Ideal ⟨1, ![128]⟩ .f32)
    (W22 : FVec Ideal ⟨2, ![128, 128]⟩ .f32) (b22 : FVec Ideal ⟨1, ![128]⟩ .f32)
    (Wl : FVec Ideal ⟨2, ![128, 64]⟩ .f32) (bl : FVec Ideal ⟨1, ![64]⟩ .f32) : (⟨2, ![50000, 64]⟩ : Shape).Idx → EReal :=
  head (mlp (agg gd sd hbE hbC hbT (mlp (agg gd sd hbE hbC hbT x src dst e1) W11 b11 W12 b12) src dst e2) W21 b21 W22 b22) Wl bl

end Cert.Gin

end
-- ==== Proof.KernelValue.lean ====
/-
  The kernel program's result array, read through its three regions and the host operations between them.

  Before each dense-block region the host computes one round of aggregation into the region's table operand and hands
  the weights over narrowed to a shorter float format (the identity on extended reals) and the biases as 1 × 128 rows;
  each region leaves in its output array the layer function of the arrays it found (the region modules). Chaining the
  three, the result array ends holding the network of the arguments.
-/
import proofs.«174829_j61040075211351_1_alg».proof.Proof.Gen.KernelIdeal.Frame
import proofs.«174829_j61040075211351_1_alg».proof.Proof.Region0
import proofs.«174829_j61040075211351_1_alg».proof.Proof.Region1
import proofs.«174829_j61040075211351_1_alg».proof.Proof.Region2
import proofs.«174829_j61040075211351_1_alg».proof.Proof.Net
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo
open Cert.Lib.RowLayers Cert.Gin Cert.Lib.LogSoftmax

variable (m : (ℓ : Loc nD τ sig) → Buf (Elt Ideal) ℓ) (ρ : Dev nD → PrngReg)

/-- One round of aggregation with this program's dimension records. -/
abbrev aggK (h : FVec Ideal Tab .f32) (src dst : IVec Edges 32) (eps : FVec Ideal Sc .f32) : FVec Ideal Tab .f32 :=
  agg gather_S50000x128_S800000x1_S800000x128_1_0_n_n_0_1_1128 scatter_S50000x128_S800000x1_S800000x128_1_0_0_1 bcast_S_S800000 bcast_S800000_S800000x1_0 bcast_S_S50000x128 h src dst eps
/-- The edges' source and target nodes, from the edge table. -/
abbrev srcK (ei : IVec EdgeTab 32) : IVec Edges 32 := srcOf slices_S2x800000_S1x800000_0_0 shapeCasts_S1x800000_S800000 ei
abbrev dstK (ei : IVec EdgeTab 32) : IVec Edges 32 := dstOf slices_S2x800000_S1x800000_1_0 shapeCasts_S1x800000_S800000 ei

/-- A weight narrowed to the shorter float format the kernels take it in: the same extended reals. -/
abbrev narrow {s : Shape} (W : FVec Ideal s .f32) : FVec Ideal s .bf16 := truncf .bf16 W bitsLt_bf16_f32

/-- The first round's table, the first dense block's output, the second round's table, the second dense block's output,
    and the result, each as a function of the arguments on core `c`. -/
def z1 (c : Dev nD) : FVec Ideal Tab .f32 := aggK (m ((c.tc : Thread nD τ).loc main_arg0)) (srcK (m ((c.tc : Thread nD τ).loc main_arg1))) (dstK (m ((c.tc : Thread nD τ).loc main_arg1))) (m ((c.tc : Thread nD τ).loc main_arg2))
def h1 (c : Dev nD) : FVec Ideal Tab .f32 :=
  mlp (M := 50000) (K := 128) (N := 128) (N' := 128) (z1 m c) (m ((c.tc : Thread nD τ).loc main_arg3)) (m ((c.tc : Thread nD τ).loc main_arg4)) (m ((c.tc : Thread nD τ).loc main_arg5)) (m ((c.tc : Thread nD τ).loc main_arg6))
def z2 (c : Dev nD) : FVec Ideal Tab .f32 := aggK (h1 m c) (srcK (m ((c.tc : Thread nD τ).loc main_arg1))) (dstK (m ((c.tc : Thread nD τ).loc main_arg1))) (m ((c.tc : Thread nD τ).loc main_arg7))
def h2 (c : Dev nD) : FVec Ideal Tab .f32 :=
  mlp (M := 50000) (K := 128) (N := 128) (N' := 128) (z2 m c) (m ((c.tc : Thread nD τ).loc main_arg8)) (m ((c.tc : Thread nD τ).loc main_arg9)) (m ((c.tc : Thread nD τ).loc main_arg10)) (m ((c.tc : Thread nD τ).loc main_arg11))
def out (c : Dev nD) : S50000x64.Idx → EReal :=
  head (M := 50000) (K := 128) (N := 64) (h2 m c) (m ((c.tc : Thread nD τ).loc main_arg12)) (m ((c.tc : Thread nD τ).loc main_arg13))

/-! ## Before region 0 -/

theorem V1_v22 (c : Dev nD) : V1 m ρ c main_v22 = z1 m c := by
  show StableHlo.after hostOps0 (W0 m ρ c) (Proc.devRef .tc main_v22) = _
  after_results_simp <;> rfl
theorem V1_v4 (c : Dev nD) : V1 m ρ c main_v4 = narrow (s := S128x128) (m ((c.tc : Thread nD τ).loc main_arg3)) := by
  show StableHlo.after hostOps0 (W0 m ρ c) (Proc.devRef .tc main_v4) = _
  after_results_simp <;> rfl
theorem V1_v5 (c : Dev nD) : V1 m ρ c main_v5 = narrow (s := S128x128) (m ((c.tc : Thread nD τ).loc main_arg5)) := by
  show StableHlo.after hostOps0 (W0 m ρ c) (Proc.devRef .tc main_v5) = _
  after_results_simp <;> rfl
theorem V1_v6 (c : Dev nD) : V1 m ρ c main_v6 = narrow (s := S128x128) (m ((c.tc : Thread nD τ).loc main_arg8)) := by
  show StableHlo.after hostOps0 (W0 m ρ c) (Proc.devRef .tc main_v6) = _
  after_results_simp <;> rfl
theorem V1_v7 (c : Dev nD) : V1 m ρ c main_v7 = narrow (s := S128x128) (m ((c.tc : Thread nD τ).loc main_arg10)) := by
  show StableHlo.after hostOps0 (W0 m ρ c) (Proc.devRef .tc main_v7) = _
  after_results_simp <;> rfl
theorem V1_v8 (c : Dev nD) : V1 m ρ c main_v8 = narrow (s := S128x64) (m ((c.tc : Thread nD τ).loc main_arg12)) := by
  show StableHlo.after hostOps0 (W0 m ρ c) (Proc.devRef .tc main_v8) = _
  after_results_simp <;> rfl
theorem V1_v23 (c : Dev nD) : V1 m ρ c main_v23 = shapeCast S1x128 (m ((c.tc : Thread nD τ).loc main_arg4)) shapeCasts_S128_S1x128 := by
  show StableHlo.after hostOps0 (W0 m ρ c) (Proc.devRef .tc main_v23) = _
  after_results_simp <;> rfl
theorem V1_v24 (c : Dev nD) : V1 m ρ c main_v24 = shapeCast S1x128 (m ((c.tc : Thread nD τ).loc main_arg6)) shapeCasts_S128_S1x128 := by
  show StableHlo.after hostOps0 (W0 m ρ c) (Proc.devRef .tc main_v24) = _
  after_results_simp <;> rfl
theorem V1_v1 (c : Dev nD) : V1 m ρ c main_v1 = srcK (m ((c.tc : Thread nD τ).loc main_arg1)) := by
  show StableHlo.after hostOps0 (W0 m ρ c) (Proc.devRef .tc main_v1) = _
  after_results_simp <;> rfl
theorem V1_v3 (c : Dev nD) : V1 m ρ c main_v3 = dstK (m ((c.tc : Thread nD τ).loc main_arg1)) := by
  show StableHlo.after hostOps0 (W0 m ρ c) (Proc.devRef .tc main_v3) = _
  after_results_simp <;> rfl
theorem V1_arg7 (c : Dev nD) : V1 m ρ c main_arg7 = (m ((c.tc : Thread nD τ).loc main_arg7)) := by
  show StableHlo.after hostOps0 (W0 m ρ c) (Proc.devRef .tc main_arg7) = _
  after_results_simp <;> rfl
theorem V1_arg9 (c : Dev nD) : V1 m ρ c main_arg9 = (m ((c.tc : Thread nD τ).loc main_arg9)) := by
  show StableHlo.after hostOps0 (W0 m ρ c) (Proc.devRef .tc main_arg9) = _
  after_results_simp <;> rfl
theorem V1_arg11 (c : Dev nD) : V1 m ρ c main_arg11 = (m ((c.tc : Thread nD τ).loc main_arg11)) := by
  show StableHlo.after hostOps0 (W0 m ρ c) (Proc.devRef .tc main_arg11) = _
  after_results_simp <;> rfl
theorem V1_arg13 (c : Dev nD) : V1 m ρ c main_arg13 = (m ((c.tc : Thread nD τ).loc main_arg13)) := by
  show StableHlo.after hostOps0 (W0 m ρ c) (Proc.devRef .tc main_arg13) = _
  after_results_simp <;> rfl

/-! ## Region 0 -/

theorem V2_v25 (c : Dev nD) : V2 m ρ c main_v25 = h1 m c := by
  refine ((W2_arr m ρ c 5).trans (Cert.KernelIdeal.Region0.final (V1 m ρ) c)).trans ?_
  unfold Cert.KernelIdeal.Region0.G
  rw [V1_v22, V1_v4, V1_v23, V1_v5, V1_v24, rowVec_reshape, rowVec_reshape]
  rfl
theorem V2_v1 (c : Dev nD) : V2 m ρ c main_v1 = V1 m ρ c main_v1 := W2_of_ne m ρ c main_v1 (by decide)
theorem V2_v3 (c : Dev nD) : V2 m ρ c main_v3 = V1 m ρ c main_v3 := W2_of_ne m ρ c main_v3 (by decide)
theorem V2_v6 (c : Dev nD) : V2 m ρ c main_v6 = V1 m ρ c main_v6 := W2_of_ne m ρ c main_v6 (by decide)
theorem V2_v7 (c : Dev nD) : V2 m ρ c main_v7 = V1 m ρ c main_v7 := W2_of_ne m ρ c main_v7 (by decide)
theorem V2_v8 (c : Dev nD) : V2 m ρ c main_v8 = V1 m ρ c main_v8 := W2_of_ne m ρ c main_v8 (by decide)
theorem V2_arg7 (c : Dev nD) : V2 m ρ c main_arg7 = V1 m ρ c main_arg7 := W2_of_ne m ρ c main_arg7 (by decide)
theorem V2_arg9 (c : Dev nD) : V2 m ρ c main_arg9 = V1 m ρ c main_arg9 := W2_of_ne m ρ c main_arg9 (by decide)
theorem V2_arg11 (c : Dev nD) : V2 m ρ c main_arg11 = V1 m ρ c main_arg11 := W2_of_ne m ρ c main_arg11 (by decide)
theorem V2_arg13 (c : Dev nD) : V2 m ρ c main_arg13 = V1 m ρ c main_arg13 := W2_of_ne m ρ c main_arg13 (by decide)

/-! ## Between regions 0 and 1 -/

theorem V3_v39 (c : Dev nD) : V3 m ρ c main_v39 = z2 m c := by
  have e : V3 m ρ c main_v39 = aggK (V2 m ρ c main_v25) (V2 m ρ c main_v1) (V2 m ρ c main_v3) (V2 m ρ c main_arg7) := by
    show StableHlo.after hostOps1 (W2 m ρ c) (Proc.devRef .tc main_v39) = _
    after_results_simp <;> rfl
  rw [e, V2_v25, V2_v1, V2_v3, V2_arg7, V1_v1, V1_v3, V1_arg7]
  rfl
theorem V3_v40 (c : Dev nD) : V3 m ρ c main_v40 = shapeCast S1x128 (m ((c.tc : Thread nD τ).loc main_arg9)) shapeCasts_S128_S1x128 := by
  have e : V3 m ρ c main_v40 = shapeCast S1x128 (V2 m ρ c main_arg9) shapeCasts_S128_S1x128 := by
    show StableHlo.after hostOps1 (W2 m ρ c) (Proc.devRef .tc main_v40) = _
    after_results_simp <;> rfl
  rw [e, V2_arg9, V1_arg9]
theorem V3_v41 (c : Dev nD) : V3 m ρ c main_v41 = shapeCast S1x128 (m ((c.tc : Thread nD τ).loc main_arg11)) shapeCasts_S128_S1x128 := by
  have e : V3 m ρ c main_v41 = shapeCast S1x128 (V2 m ρ c main_arg11) shapeCasts_S128_S1x128 := by
    show StableHlo.after hostOps1 (W2 m ρ c) (Proc.devRef .tc main_v41) = _
    after_results_simp <;> rfl
  rw [e, V2_arg11, V1_arg11]
theorem V3_v6 (c : Dev nD) : V3 m ρ c main_v6 = narrow (s := S128x128) (m ((c.tc : Thread nD τ).loc main_arg8)) := by
  have e : V3 m ρ c main_v6 = V2 m ρ c main_v6 := by
    show StableHlo.after hostOps1 (W2 m ρ c) (Proc.devRef .tc main_v6) = _
    after_results_simp <;> rfl
  rw [e, V2_v6, V1_v6]
theorem V3_v7 (c : Dev nD) : V3 m ρ c main_v7 = narrow (s := S128x128) (m ((c.tc : Thread nD τ).loc main_arg10)) := by
  have e : V3 m ρ c main_v7 = V2 m ρ c main_v7 := by
    show StableHlo.after hostOps1 (W2 m ρ c) (Proc.devRef .tc main_v7) = _
    after_results_simp <;> rfl
  rw [e, V2_v7, V1_v7]
theorem V3_v8 (c : Dev nD) : V3 m ρ c main_v8 = narrow (s := S128x64) (m ((c.tc : Thread nD τ).loc main_arg12)) := by
  have e : V3 m ρ c main_v8 = V2 m ρ c main_v8 := by
    show StableHlo.after hostOps1 (W2 m ρ c) (Proc.devRef .tc main_v8) = _
    after_results_simp <;> rfl
  rw [e, V2_v8, V1_v8]
theorem V3_arg13 (c : Dev nD) : V3 m ρ c main_arg13 = (m ((c.tc : Thread nD τ).loc main_arg13)) := by
  have e : V3 m ρ c main_arg13 = V2 m ρ c main_arg13 := by
    show StableHlo.after hostOps1 (W2 m ρ c) (Proc.devRef .tc main_arg13) = _
    after_results_simp <;> rfl
  rw [e, V2_arg13, V1_arg13]

/-! ## Region 1 -/

theorem V4_v42 (c : Dev nD) : V4 m ρ c main_v42 = h2 m c := by
  refine ((W4_arr m ρ c 5).trans (Cert.KernelIdeal.Region1.final (V3 m ρ) c)).trans ?_
  unfold Cert.KernelIdeal.Region1.G
  rw [V3_v39, V3_v6, V3_v40, V3_v7, V3_v41, rowVec_reshape, rowVec_reshape]
  rfl
theorem V4_v8 (c : Dev nD) : V4 m ρ c main_v8 = narrow (s := S128x64) (m ((c.tc : Thread nD τ).loc main_arg12)) :=
  (W4_of_ne m ρ c main_v8 (by decide)).trans (V3_v8 m ρ c)
theorem V4_arg13 (c : Dev nD) : V4 m ρ c main_arg13 = (m ((c.tc : Thread nD τ).loc main_arg13)) :=
  (W4_of_ne m ρ c main_arg13 (by decide)).trans (V3_arg13 m ρ c)

/-! ## Between regions 1 and 2 -/

theorem V5_v42 (c : Dev nD) : V5 m ρ c main_v42 = h2 m c := by
  have e : V5 m ρ c main_v42 = V4 m ρ c main_v42 := by
    show StableHlo.after hostOps2 (W4 m ρ c) (Proc.devRef .tc main_v42) = _
    after_results_simp <;> rfl
  rw [e, V4_v42]
theorem V5_v8 (c : Dev nD) : V5 m ρ c main_v8 = narrow (s := S128x64) (m ((c.tc : Thread nD τ).loc main_arg12)) := by
  have e : V5 m ρ c main_v8 = V4 m ρ c main_v8 := by
    show StableHlo.after hostOps2 (W4 m ρ c) (Proc.devRef .tc main_v8) = _
    after_results_simp <;> rfl
  rw [e, V4_v8]
theorem V5_v43 (c : Dev nD) : V5 m ρ c main_v43 = shapeCast S1x64 (m ((c.tc : Thread nD τ).loc main_arg13)) shapeCasts_S64_S1x64 := by
  have e : V5 m ρ c main_v43 = shapeCast S1x64 (V4 m ρ c main_arg13) shapeCasts_S64_S1x64 := by
    show StableHlo.after hostOps2 (W4 m ρ c) (Proc.devRef .tc main_v43) = _
    after_results_simp <;> rfl
  rw [e, V4_arg13]

/-! ## Region 2 -/

/-- The result array after the run is the network of the arguments. -/
theorem V6_v44 (c : Dev nD) : V6 m ρ c main_v44 = out m c := by
  refine ((W6_arr m ρ c 3).trans (Cert.KernelIdeal.Region2.final (V5 m ρ) c)).trans ?_
  unfold Cert.KernelIdeal.Region2.G
  rw [V5_v42, V5_v8, V5_v43, rowVec_reshape]
  rfl

end Cert.KernelIdeal.Chain

end
-- ==== Proof.LibAfter.lean ====
/-
  General facts for reading the fold of buffer contents through a line of host operations.

  * Over a concatenation: running two lines one after the other is running the first, then the second from what the first
    left (`after_append`).
  * A concatenation of TWO arrays with the arrays as plain arguments (`concat2`, `concatenate_pair`): in `concatenate` the
    operands sit in a list of (shape, array) pairs on which the shape fact depends, so a rewriting pass cannot go inside the
    list; stated over the two arrays it can.
  * `read_fold`: one rewriting pass that reads such a fold back at a buffer — each operation's result at its own result
    buffer is its function of the operands' contents, at any other buffer what was there — going inside two-operand
    concatenations as well.
-/
import Idealize.ShloMosaic.Lib.StableHlo.Run

noncomputable section

namespace Cert.Lib.After

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The concatenation of two arrays along an axis, the arrays as plain arguments. -/
def concat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A two-operand `concatenate` is that. -/
theorem concatenate_pair {α : Type} (t : Shape) (a : Fin t.rank) (s₁ s₂ : Shape) (x : s₁.Idx → α) (y : s₂.Idx → α)
    (h : Shape.Concatenates (([⟨s₁, x⟩, ⟨s₂, y⟩] : List ((s : Shape) × (s.Idx → α))).map (·.1)) t a) :
    concatenate t a [⟨s₁, x⟩, ⟨s₂, y⟩] h = concat2 t a s₁ s₂ x y (by simpa using h) := rfl

end Cert.Lib.After

/-- Reads a fold of host operations back at a buffer in one rewriting pass (the library's pass, and inside two-operand
    concatenations). -/
macro "read_fold" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne',
      Cert.Lib.After.concatenate_pair]))

end
-- ==== Proof.LibHostLogSoftmax.lean ====
/-
  The host's spelling of a linear layer and of the row-wise log-softmax, read as the whole-array functions.

  The host writes a linear layer as a `dot_general` plus the bias broadcast in two steps to the matrix's shape, and the
  row-wise log-softmax as: the row maximum by a `reduce` from −∞ (then once more the maximum with a broadcast −∞,
  which changes nothing, the fold having started there), the difference, the exponential, the row sum by a `reduce` from
  zero, the logarithm, and the second difference — the maximum and the sum each set up as an `M × 1` column and
  repeated along the row. Entry by entry these are `lin` and `logSoftmax`.
-/
import Idealize.ShloMosaic.Lib.ValueIdx
import Idealize.ShloMosaic.Lib.Pipeline.Value
import Idealize.ShloMosaic.Lib.IdealHost
import Idealize.ShloMosaic.PureOps.Ideal.Laws
import proofs.«174829_j61040075211351_1_alg».proof.Proof.LibLogSoftmax

noncomputable section

open scoped BigOperators

namespace Cert.Lib.LogSoftmax

open Idealize.ShloMosaic Idealize.ShloMosaic.ValueIdx Cert.Lib.BiasDot Cert.Lib.Dense Cert.Lib.RowLayers

variable {M K N : Nat}

/-- The host's linear layer without a positive part: product, bias broadcast in two steps, sum. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 B))
      = lin X W B := by
  subst hd
  funext i
  obtain ⟨p, q, rfl⟩ : ∃ (p : Fin M) (q : Fin N), i = ix2 p q := ⟨i 0, i 1, eq_ix2 i⟩
  rw [addf_apply, hostRow_apply]
  exact congrArg (fun z => z + B (ix1 q)) (Cert.Lib.PlainDot.dotGeneral_apply none _ X W p q)

/-- A vector of `M` row values set up as an `M × 1` column: at `(p, 0)`, the vector at `p`. -/
theorem colIn_apply {α : Type} (v : (⟨1, ![M]⟩ : Shape).Idx → α)
    (hb1 : (⟨1, ![M]⟩ : Shape).BroadcastsInDim ⟨2, ![M, 1]⟩ ![0]) (p : Fin M) :
    broadcastInDim ⟨2, ![M, 1]⟩ ![0] hb1 v (ix2 p (0 : Fin 1)) = v (ix1 p) := by
  refine broadcastInDim_apply ![0] hb1 v (ix2 p (0 : Fin 1)) (ix1 p) (fun a => ?_)
  match a with
  | ⟨0, _⟩ =>
    show p.val = if M = 1 then 0 else p.val
    split
    · have := p.isLt; omega
    · rfl

/-- An `M × 1` column repeated along `N` columns: at `(p, q)`, the column at `(p, 0)`. -/
theorem spreadIn_apply {α : Type} (v : (⟨2, ![M, 1]⟩ : Shape).Idx → α)
    (hb2 : (⟨2, ![M, 1]⟩ : Shape).BroadcastsInDim ⟨2, ![M, N]⟩ ![0, 1]) (p : Fin M) (q : Fin N) :
    broadcastInDim ⟨2, ![M, N]⟩ ![0, 1] hb2 v (ix2 p q) = v (ix2 p (0 : Fin 1)) := by
  refine broadcastInDim_apply ![0, 1] hb2 v (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- The host's row-wise shifted log-softmax is `logSoftmax`. -/
theorem host_logSoftmax (L : FVec Ideal ⟨2, ![M, N]⟩ .f32)
    (hr' : (⟨2, ![M, N]⟩ : Shape).ReducesTo [1] ⟨1, ![M]⟩) (hr : (⟨2, ![M, N]⟩ : Shape).Reduces [1] ⟨1, ![M]⟩)
    (hu : 0 < (⟨0, ![]⟩ : Shape).numel)
    (hb0 : (⟨0, ![]⟩ : Shape).BroadcastsInDim ⟨1, ![M]⟩ ![])
    (hb1 : (⟨1, ![M]⟩ : Shape).BroadcastsInDim ⟨2, ![M, 1]⟩ ![0])
    (hb2 : (⟨2, ![M, 1]⟩ : Shape).BroadcastsInDim ⟨2, ![M, N]⟩ ![0, 1]) :
    subf (subf L (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf L (constant (F := Ideal) ⟨0, ![]⟩ .f32 0xFF800000#32) hr' hu)))))
      (broadcastInDim ⟨2, ![M, N]⟩ ![0, 1] hb2 (Host.log (broadcastInDim ⟨2, ![M, 1]⟩ ![0] hb1
        (Host.reduceAdd
          (Host.exp (subf L (broadcastInDim ⟨2, ![M, N]⟩ ![0, 1] hb2 (broadcastInDim ⟨2, ![M, 1]⟩ ![0] hb1
            (maximumf (broadcastInDim ⟨1, ![M]⟩ ![] hb0 (constant (F := Ideal) ⟨0, ![]⟩ .f32 0xFF800000#32))
              (Host.reduce FloatOps.maximumf L (constant (F := Ideal) ⟨0, ![]⟩ .f32 0xFF800000#32) hr' hu))))))
          (constant (F := Ideal) ⟨0, ![]⟩ .f32 0x00000000#32) hr' hu))))
      = logSoftmax L := by
  have hmax : ∀ (p : Fin M) (q : Fin N),
      broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf L (constant (F := Ideal) ⟨0, ![]⟩ .f32 0xFF800000#32) hr' hu))) (ix2 p q)
        = rowMax L p := by
    intro p q
    rw [spreadIn_apply, colIn_apply, maximumf_apply, broadcastInDim_scalar_apply,
      Host.reduce_eq_fold_single FloatOps.maximumf L _ hr' hr hu (ix1 p)]
    have e : (L ∘ hr.lift (ix1 p)) = fun k : Fin N => L (ix2 p k) :=
      funext fun k => congrArg L (Cert.Lib.BlockOps.lift_row hr p k)
    rw [e]
    show max (Ideal.ofBits .f32 0xFF800000#32)
        ((Finset.univ : Finset (Fin N)).fold max (Ideal.ofBits .f32 0xFF800000#32) (fun k => L (ix2 p k))) = _
    exact max_eq_right ((Finset.le_fold_max _).mpr (Or.inl le_rfl))
  funext i
  obtain ⟨p, q, rfl⟩ : ∃ (p : Fin M) (q : Fin N), i = ix2 p q := ⟨i 0, i 1, eq_ix2 i⟩
  rw [subf_apply, subf_apply, hmax, spreadIn_apply, logSoftmax_apply]
  refine congrArg (fun s => (L (ix2 p q) - rowMax L p) - s) ?_
  show FloatOps.hostUnary .log (broadcastInDim (s := ⟨1, ![M]⟩) ⟨2, ![M, 1]⟩ ![0] hb1 _ (ix2 p (0 : Fin 1))) = _
  rw [colIn_apply]
  show Ideal.log (Ideal.hostReduceAdd hr' _ (Ideal.ofBits .f32 0x00000000#32) (ix1 p)) = _
  rw [Ideal.hostReduceAdd_single hr' hr, Ideal.ofBits_zero_f32, zero_add]
  refine congrArg Ideal.log (Finset.sum_congr (s₁ := (Finset.univ : Finset (Fin N))) rfl fun k _ => ?_)
  show FloatOps.hostUnary .exp (subf L _ (hr.lift (ix1 p) k)) = _
  rw [Cert.Lib.BlockOps.lift_row hr p k, subf_apply, hmax]
  rfl

end Cert.Lib.LogSoftmax

end
-- ==== Proof.RefValue.lean ====
/-
  The reference program's result array, read back through its 87 host operations in three stretches.

  The first 36 operations compute the first round of aggregation and the first dense block; the next 32 the second round
  and the second dense block, reading the first block's output and the edges' node numbers where the first stretch left
  them; the last 19 the last layer. Each stretch's result is the host's spelling of a layer function of what the stretch
  found; chained, the result array is the network of the arguments.
-/
import proofs.«174829_j61040075211351_1_alg».proof.Proof.RefRun
import proofs.«174829_j61040075211351_1_alg».proof.Proof.LibAfter
import proofs.«174829_j61040075211351_1_alg».proof.Proof.LibHostLogSoftmax
import proofs.«174829_j61040075211351_1_alg».proof.Proof.Net

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo
open Cert.Lib.Dense Cert.Lib.BiasDot Cert.Gin Cert.Lib.LogSoftmax

variable (m : (ℓ : Loc nD τ sig) → Buf (Elt Ideal) ℓ)

/-- One round of aggregation with this program's dimension records. -/
abbrev aggR (h : FVec Ideal Tab .f32) (src dst : IVec Edges 32) (eps : FVec Ideal Sc .f32) : FVec Ideal Tab .f32 :=
  agg gather_S50000x128_S800000x1_S800000x128_1_0_n_n_0_1_1128 scatter_S50000x128_S800000x1_S800000x128_1_0_0_1 bcast_S_S800000 bcast_S800000_S800000x1_0 bcast_S_S50000x128 h src dst eps
/-- The edges' source and target nodes, from the edge table. -/
abbrev srcR (ei : IVec EdgeTab 32) : IVec Edges 32 := srcOf slices_S2x800000_S1x800000_0_0 shapeCasts_S1x800000_S800000 ei
abbrev dstR (ei : IVec EdgeTab 32) : IVec Edges 32 := dstOf slices_S2x800000_S1x800000_1_0 shapeCasts_S1x800000_S800000 ei

/-- The first round's table, the first dense block's output, the second round's table, the second dense block's output,
    and the result, each as a function of the arguments on core `c`. -/
def z1 (c : Dev nD) : FVec Ideal Tab .f32 := aggR (m ((c.tc : Thread nD τ).loc main_arg0)) (srcR (m ((c.tc : Thread nD τ).loc main_arg1))) (dstR (m ((c.tc : Thread nD τ).loc main_arg1))) (m ((c.tc : Thread nD τ).loc main_arg2))
def h1 (c : Dev nD) : FVec Ideal Tab .f32 :=
  mlp (M := 50000) (K := 128) (N := 128) (N' := 128) (z1 m c) (m ((c.tc : Thread nD τ).loc main_arg3)) (m ((c.tc : Thread nD τ).loc main_arg4)) (m ((c.tc : Thread nD τ).loc main_arg5)) (m ((c.tc : Thread nD τ).loc main_arg6))
def z2 (c : Dev nD) : FVec Ideal Tab .f32 := aggR (h1 m c) (srcR (m ((c.tc : Thread nD τ).loc main_arg1))) (dstR (m ((c.tc : Thread nD τ).loc main_arg1))) (m ((c.tc : Thread nD τ).loc main_arg7))
def h2 (c : Dev nD) : FVec Ideal Tab .f32 :=
  mlp (M := 50000) (K := 128) (N := 128) (N' := 128) (z2 m c) (m ((c.tc : Thread nD τ).loc main_arg8)) (m ((c.tc : Thread nD τ).loc main_arg9)) (m ((c.tc : Thread nD τ).loc main_arg10)) (m ((c.tc : Thread nD τ).loc main_arg11))
def out (c : Dev nD) : S50000x64.Idx → EReal :=
  head (M := 50000) (K := 128) (N := 64) (h2 m c) (m ((c.tc : Thread nD τ).loc main_arg12)) (m ((c.tc : Thread nD τ).loc main_arg13))

/-- The host's spelling of a dense layer with the positive part, of the last linear layer and of the row-wise
    log-softmax, over this program's records. -/
def hostLayer (z : FVec Ideal S50000x128 .f32) (W : FVec Ideal S128x128 .f32) (b : FVec Ideal S128 .f32) :
    FVec Ideal S50000x128 .f32 :=
  maximumf (addf (Host.dotGeneral dot_S50000x128_S128x128_S50000x128_1_0_0_1_n_n none z W)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

theorem hostLayer_eq (z : FVec Ideal S50000x128 .f32) (W : FVec Ideal S128x128 .f32) (b : FVec Ideal S128 .f32) :
    hostLayer z W b = relu (lin z W b) :=
  host_lin_relu dot_S50000x128_S128x128_S50000x128_1_0_0_1_n_n rfl z W b _ _ _ _

def hostLogits (h : FVec Ideal S50000x128 .f32) (W : FVec Ideal S128x64 .f32) (b : FVec Ideal S64 .f32) :
    FVec Ideal S50000x64 .f32 :=
  addf (Host.dotGeneral dot_S50000x128_S128x64_S50000x64_1_0_0_1_n_n none h W)
    (broadcastInDim S50000x64 ![0, 1] bcast_S1x64_S50000x64_0_1 (broadcastInDim S1x64 ![1] bcast_S64_S1x64_1 b))

theorem hostLogits_eq (h : FVec Ideal S50000x128 .f32) (W : FVec Ideal S128x64 .f32) (b : FVec Ideal S64 .f32) :
    hostLogits h W b = lin h W b :=
  host_lin dot_S50000x128_S128x64_S50000x64_1_0_0_1_n_n rfl h W b _ _

def hostLogSoftmax (L : FVec Ideal S50000x64 .f32) : FVec Ideal S50000x64 .f32 :=
  subf (subf L (broadcastInDim S50000x64 ![0, 1] bcast_S50000x1_S50000x64_0_1 (broadcastInDim S50000x1 ![0] bcast_S50000_S50000x1_0
        (maximumf (broadcastInDim S50000 ![] bcast_S_S50000 (constant S_ .f32 0xFF800000#32))
          (Host.reduce FloatOps.maximumf L (constant S_ .f32 0xFF800000#32) reducesTo_S50000x64_S50000_d1 h_S_)))))
    (broadcastInDim S50000x64 ![0, 1] bcast_S50000x1_S50000x64_0_1 (Host.log (broadcastInDim S50000x1 ![0] bcast_S50000_S50000x1_0
      (Host.reduceAdd
        (Host.exp (subf L (broadcastInDim S50000x64 ![0, 1] bcast_S50000x1_S50000x64_0_1 (broadcastInDim S50000x1 ![0] bcast_S50000_S50000x1_0
          (maximumf (broadcastInDim S50000 ![] bcast_S_S50000 (constant S_ .f32 0xFF800000#32))
            (Host.reduce FloatOps.maximumf L (constant S_ .f32 0xFF800000#32) reducesTo_S50000x64_S50000_d1 h_S_))))))
        (constant S_ .f32 0x00000000#32) reducesTo_S50000x64_S50000_d1 h_S_))))

theorem hostLogSoftmax_eq (L : FVec Ideal S50000x64 .f32) : hostLogSoftmax L = logSoftmax L :=
  host_logSoftmax L reducesTo_S50000x64_S50000_d1 (by decide) h_S_ bcast_S_S50000 bcast_S50000_S50000x1_0 bcast_S50000x1_S50000x64_0_1

/-! ## The called function's typed references

A value of the called log-softmax function is held in a buffer through a typed reference, whose contents are carried to
the buffer's type and back along an equation that holds by computation: both carriers are the identity. -/
theorem toBuf_main_call4_cst (v : (⟨S_, .f32⟩ : BufTy).Contents (Elt Ideal)) :
    (TRef.of (sig := sig) (T := ⟨S_, .f32⟩) main_call4_cst).toBuf v = v := Eq.trans rfl rfl
theorem ofBuf_main_call4_cst (v : main_call4_cst.ty.Contents (Elt Ideal)) :
    (TRef.of (sig := sig) (T := ⟨S_, .f32⟩) main_call4_cst).ofBuf v = v := Eq.trans rfl rfl
theorem toBuf_main_call4_v0 (v : (⟨S50000, .f32⟩ : BufTy).Contents (Elt Ideal)) :
    (TRef.of (sig := sig) (T := ⟨S50000, .f32⟩) main_call4_v0).toBuf v = v := Eq.trans rfl rfl
theorem ofBuf_main_call4_v0 (v : main_call4_v0.ty.Contents (Elt Ideal)) :
    (TRef.of (sig := sig) (T := ⟨S50000, .f32⟩) main_call4_v0).ofBuf v = v := Eq.trans rfl rfl
theorem toBuf_main_call4_cst_0 (v : (⟨S_, .f32⟩ : BufTy).Contents (Elt Ideal)) :
    (TRef.of (sig := sig) (T := ⟨S_, .f32⟩) main_call4_cst_0).toBuf v = v := Eq.trans rfl rfl
theorem ofBuf_main_call4_cst_0 (v : main_call4_cst_0.ty.Contents (Elt Ideal)) :
    (TRef.of (sig := sig) (T := ⟨S_, .f32⟩) main_call4_cst_0).ofBuf v = v := Eq.trans rfl rfl
theorem toBuf_main_call4_v1 (v : (⟨S50000, .f32⟩ : BufTy).Contents (Elt Ideal)) :
    (TRef.of (sig := sig) (T := ⟨S50000, .f32⟩) main_call4_v1).toBuf v = v := Eq.trans rfl rfl
theorem ofBuf_main_call4_v1 (v : main_call4_v1.ty.Contents (Elt Ideal)) :
    (TRef.of (sig := sig) (T := ⟨S50000, .f32⟩) main_call4_v1).ofBuf v = v := Eq.trans rfl rfl
theorem toBuf_main_call4_v2 (v : (⟨S50000, .f32⟩ : BufTy).Contents (Elt Ideal)) :
    (TRef.of (sig := sig) (T := ⟨S50000, .f32⟩) main_call4_v2).toBuf v = v := Eq.trans rfl rfl
theorem ofBuf_main_call4_v2 (v : main_call4_v2.ty.Contents (Elt Ideal)) :
    (TRef.of (sig := sig) (T := ⟨S50000, .f32⟩) main_call4_v2).ofBuf v = v := Eq.trans rfl rfl
theorem toBuf_main_call4_v3 (v : (⟨S50000x1, .f32⟩ : BufTy).Contents (Elt Ideal)) :
    (TRef.of (sig := sig) (T := ⟨S50000x1, .f32⟩) main_call4_v3).toBuf v = v := Eq.trans rfl rfl
theorem ofBuf_main_call4_v3 (v : main_call4_v3.ty.Contents (Elt Ideal)) :
    (TRef.of (sig := sig) (T := ⟨S50000x1, .f32⟩) main_call4_v3).ofBuf v = v := Eq.trans rfl rfl
theorem toBuf_main_call4_v4 (v : (⟨S50000x64, .f32⟩ : BufTy).Contents (Elt Ideal)) :
    (TRef.of (sig := sig) (T := ⟨S50000x64, .f32⟩) main_call4_v4).toBuf v = v := Eq.trans rfl rfl
theorem ofBuf_main_call4_v4 (v : main_call4_v4.ty.Contents (Elt Ideal)) :
    (TRef.of (sig := sig) (T := ⟨S50000x64, .f32⟩) main_call4_v4).ofBuf v = v := Eq.trans rfl rfl
theorem toBuf_main_call4_v5 (v : (⟨S50000x64, .f32⟩ : BufTy).Contents (Elt Ideal)) :
    (TRef.of (sig := sig) (T := ⟨S50000x64, .f32⟩) main_call4_v5).toBuf v = v := Eq.trans rfl rfl
theorem ofBuf_main_call4_v5 (v : main_call4_v5.ty.Contents (Elt Ideal)) :
    (TRef.of (sig := sig) (T := ⟨S50000x64, .f32⟩) main_call4_v5).ofBuf v = v := Eq.trans rfl rfl
theorem toBuf_main_call4_v6 (v : (⟨S50000x64, .f32⟩ : BufTy).Contents (Elt Ideal)) :
    (TRef.of (sig := sig) (T := ⟨S50000x64, .f32⟩) main_call4_v6).toBuf v = v := Eq.trans rfl rfl
theorem ofBuf_main_call4_v6 (v : main_call4_v6.ty.Contents (Elt Ideal)) :
    (TRef.of (sig := sig) (T := ⟨S50000x64, .f32⟩) main_call4_v6).ofBuf v = v := Eq.trans rfl rfl
theorem toBuf_main_call4_cst_1 (v : (⟨S_, .f32⟩ : BufTy).Contents (Elt Ideal)) :
    (TRef.of (sig := sig) (T := ⟨S_, .f32⟩) main_call4_cst_1).toBuf v = v := Eq.trans rfl rfl
theorem ofBuf_main_call4_cst_1 (v : main_call4_cst_1.ty.Contents (Elt Ideal)) :
    (TRef.of (sig := sig) (T := ⟨S_, .f32⟩) main_call4_cst_1).ofBuf v = v := Eq.trans rfl rfl
theorem toBuf_main_call4_v7 (v : (⟨S50000, .f32⟩ : BufTy).Contents (Elt Ideal)) :
    (TRef.of (sig := sig) (T := ⟨S50000, .f32⟩) main_call4_v7).toBuf v = v := Eq.trans rfl rfl
theorem ofBuf_main_call4_v7 (v : main_call4_v7.ty.Contents (Elt Ideal)) :
    (TRef.of (sig := sig) (T := ⟨S50000, .f32⟩) main_call4_v7).ofBuf v = v := Eq.trans rfl rfl
theorem toBuf_main_call4_v8 (v : (⟨S50000x1, .f32⟩ : BufTy).Contents (Elt Ideal)) :
    (TRef.of (sig := sig) (T := ⟨S50000x1, .f32⟩) main_call4_v8).toBuf v = v := Eq.trans rfl rfl
theorem ofBuf_main_call4_v8 (v : main_call4_v8.ty.Contents (Elt Ideal)) :
    (TRef.of (sig := sig) (T := ⟨S50000x1, .f32⟩) main_call4_v8).ofBuf v = v := Eq.trans rfl rfl
theorem toBuf_main_call4_v9 (v : (⟨S50000x1, .f32⟩ : BufTy).Contents (Elt Ideal)) :
    (TRef.of (sig := sig) (T := ⟨S50000x1, .f32⟩) main_call4_v9).toBuf v = v := Eq.trans rfl rfl
theorem ofBuf_main_call4_v9 (v : main_call4_v9.ty.Contents (Elt Ideal)) :
    (TRef.of (sig := sig) (T := ⟨S50000x1, .f32⟩) main_call4_v9).ofBuf v = v := Eq.trans rfl rfl
theorem toBuf_main_call4_v10 (v : (⟨S50000x64, .f32⟩ : BufTy).Contents (Elt Ideal)) :
    (TRef.of (sig := sig) (T := ⟨S50000x64, .f32⟩) main_call4_v10).toBuf v = v := Eq.trans rfl rfl
theorem ofBuf_main_call4_v10 (v : main_call4_v10.ty.Contents (Elt Ideal)) :
    (TRef.of (sig := sig) (T := ⟨S50000x64, .f32⟩) main_call4_v10).ofBuf v = v := Eq.trans rfl rfl
theorem toBuf_main_v56 (v : (⟨S50000x64, .f32⟩ : BufTy).Contents (Elt Ideal)) :
    (TRef.of (sig := sig) (T := ⟨S50000x64, .f32⟩) main_v56).toBuf v = v := Eq.trans rfl rfl
theorem ofBuf_main_v56 (v : main_v56.ty.Contents (Elt Ideal)) :
    (TRef.of (sig := sig) (T := ⟨S50000x64, .f32⟩) main_v56).ofBuf v = v := Eq.trans rfl rfl
theorem toBuf_main_v55 (v : (⟨S50000x64, .f32⟩ : BufTy).Contents (Elt Ideal)) :
    (TRef.of (sig := sig) (T := ⟨S50000x64, .f32⟩) main_v55).toBuf v = v := Eq.trans rfl rfl
theorem ofBuf_main_v55 (v : main_v55.ty.Contents (Elt Ideal)) :
    (TRef.of (sig := sig) (T := ⟨S50000x64, .f32⟩) main_v55).ofBuf v = v := Eq.trans rfl rfl

/-- The buffer contents after the first 36 operations, and after the next 32. -/
def WA (c : Dev nD) : Valuation τ sig (Elt Ideal) := after ((ops (F := Ideal)).take 36) (launchContents m c)
def WB (c : Dev nD) : Valuation τ sig (Elt Ideal) := after (((ops (F := Ideal)).drop 36).take 32) (WA m c)

/-- The whole line of operations is the three stretches one after the other. -/
theorem after_split (c : Dev nD) :
    after (ops (F := Ideal)) (launchContents m c) = after (((ops (F := Ideal)).drop 36).drop 32) (WB m c) := by
  unfold WB WA
  rw [← Cert.Lib.After.after_append, ← Cert.Lib.After.after_append, List.take_append_drop, List.take_append_drop]

/-! ## The first stretch -/

theorem WA_v27 (c : Dev nD) : WA m c (Proc.devRef .tc main_v27) = h1 m c := by
  have e : WA m c (Proc.devRef .tc main_v27)
      = hostLayer (hostLayer (z1 m c) (m ((c.tc : Thread nD τ).loc main_arg3)) (m ((c.tc : Thread nD τ).loc main_arg4))) (m ((c.tc : Thread nD τ).loc main_arg5)) (m ((c.tc : Thread nD τ).loc main_arg6)) := by
    unfold WA
    simp only [ops, List.take_succ_cons, List.take_zero]
    after_results_simp
    rfl
  rw [e, hostLayer_eq, hostLayer_eq]
  rfl
theorem WA_v1 (c : Dev nD) : WA m c (Proc.devRef .tc main_v1) = srcR (m ((c.tc : Thread nD τ).loc main_arg1)) := by
  unfold WA
  simp only [ops, List.take_succ_cons, List.take_zero]
  after_results_simp <;> rfl
theorem WA_v3 (c : Dev nD) : WA m c (Proc.devRef .tc main_v3) = dstR (m ((c.tc : Thread nD τ).loc main_arg1)) := by
  unfold WA
  simp only [ops, List.take_succ_cons, List.take_zero]
  after_results_simp <;> rfl
theorem WA_arg7 (c : Dev nD) : WA m c (Proc.devRef .tc main_arg7) = (m ((c.tc : Thread nD τ).loc main_arg7)) := by
  unfold WA
  simp only [ops, List.take_succ_cons, List.take_zero]
  after_results_simp <;> rfl
theorem WA_arg8 (c : Dev nD) : WA m c (Proc.devRef .tc main_arg8) = (m ((c.tc : Thread nD τ).loc main_arg8)) := by
  unfold WA
  simp only [ops, List.take_succ_cons, List.take_zero]
  after_results_simp <;> rfl
theorem WA_arg9 (c : Dev nD) : WA m c (Proc.devRef .tc main_arg9) = (m ((c.tc : Thread nD τ).loc main_arg9)) := by
  unfold WA
  simp only [ops, List.take_succ_cons, List.take_zero]
  after_results_simp <;> rfl
theorem WA_arg10 (c : Dev nD) : WA m c (Proc.devRef .tc main_arg10) = (m ((c.tc : Thread nD τ).loc main_arg10)) := by
  unfold WA
  simp only [ops, List.take_succ_cons, List.take_zero]
  after_results_simp <;> rfl
theorem WA_arg11 (c : Dev nD) : WA m c (Proc.devRef .tc main_arg11) = (m ((c.tc : Thread nD τ).loc main_arg11)) := by
  unfold WA
  simp only [ops, List.take_succ_cons, List.take_zero]
  after_results_simp <;> rfl
theorem WA_arg12 (c : Dev nD) : WA m c (Proc.devRef .tc main_arg12) = (m ((c.tc : Thread nD τ).loc main_arg12)) := by
  unfold WA
  simp only [ops, List.take_succ_cons, List.take_zero]
  after_results_simp <;> rfl
theorem WA_arg13 (c : Dev nD) : WA m c (Proc.devRef .tc main_arg13) = (m ((c.tc : Thread nD τ).loc main_arg13)) := by
  unfold WA
  simp only [ops, List.take_succ_cons, List.take_zero]
  after_results_simp <;> rfl

/-! ## The second stretch -/

theorem WB_v51 (c : Dev nD) : WB m c (Proc.devRef .tc main_v51) = h2 m c := by
  have e : WB m c (Proc.devRef .tc main_v51)
      = hostLayer (hostLayer
          (aggR (WA m c (Proc.devRef .tc main_v27)) (WA m c (Proc.devRef .tc main_v1)) (WA m c (Proc.devRef .tc main_v3)) (WA m c (Proc.devRef .tc main_arg7)))
          (WA m c (Proc.devRef .tc main_arg8)) (WA m c (Proc.devRef .tc main_arg9))) (WA m c (Proc.devRef .tc main_arg10)) (WA m c (Proc.devRef .tc main_arg11)) := by
    unfold WB
    simp only [ops, List.drop_succ_cons, List.drop_zero, List.take_succ_cons, List.take_zero]
    after_results_simp
    rfl
  rw [e, WA_v27, WA_v1, WA_v3, WA_arg7, WA_arg8, WA_arg9, WA_arg10, WA_arg11, hostLayer_eq, hostLayer_eq]
  rfl
theorem WB_arg12 (c : Dev nD) : WB m c (Proc.devRef .tc main_arg12) = (m ((c.tc : Thread nD τ).loc main_arg12)) := by
  have e : WB m c (Proc.devRef .tc main_arg12) = WA m c (Proc.devRef .tc main_arg12) := by
    unfold WB
    simp only [ops, List.drop_succ_cons, List.drop_zero, List.take_succ_cons, List.take_zero]
    after_results_simp
  rw [e, WA_arg12]
theorem WB_arg13 (c : Dev nD) : WB m c (Proc.devRef .tc main_arg13) = (m ((c.tc : Thread nD τ).loc main_arg13)) := by
  have e : WB m c (Proc.devRef .tc main_arg13) = WA m c (Proc.devRef .tc main_arg13) := by
    unfold WB
    simp only [ops, List.drop_succ_cons, List.drop_zero, List.take_succ_cons, List.take_zero]
    after_results_simp
  rw [e, WA_arg13]

/-! ## The last stretch -/

/-- The result array after the run is the network of the arguments. -/
theorem result_eq (c : Dev nD) : after (ops (F := Ideal)) (launchContents m c) (Proc.devRef .tc main_v56) = out m c := by
  rw [after_split]
  have e : after (((ops (F := Ideal)).drop 36).drop 32) (WB m c) (Proc.devRef .tc main_v56)
      = hostLogSoftmax (hostLogits (WB m c (Proc.devRef .tc main_v51)) (WB m c (Proc.devRef .tc main_arg12)) (WB m c (Proc.devRef .tc main_arg13))) := by
    simp only [ops, List.drop_succ_cons, List.drop_zero]
    after_results_simp
    simp only [toBuf_main_call4_cst, toBuf_main_call4_v0, toBuf_main_call4_cst_0, toBuf_main_call4_v1, toBuf_main_call4_v2, toBuf_main_call4_v3, toBuf_main_call4_v4, toBuf_main_call4_v5, toBuf_main_call4_v6, toBuf_main_call4_cst_1, toBuf_main_call4_v7, toBuf_main_call4_v8, toBuf_main_call4_v9, toBuf_main_call4_v10, toBuf_main_v56, toBuf_main_v55, ofBuf_main_call4_cst, ofBuf_main_call4_v0, ofBuf_main_call4_cst_0, ofBuf_main_call4_v1, ofBuf_main_call4_v2, ofBuf_main_call4_v3, ofBuf_main_call4_v4, ofBuf_main_call4_v5, ofBuf_main_call4_v6, ofBuf_main_call4_cst_1, ofBuf_main_call4_v7, ofBuf_main_call4_v8, ofBuf_main_call4_v9, ofBuf_main_call4_v10, ofBuf_main_v56, ofBuf_main_v55]
    unfold hostLogSoftmax hostLogits
    rfl
  rw [e, WB_v51, WB_arg12, WB_arg13, hostLogits_eq, hostLogSoftmax_eq]
  rfl

end Cert.ReferenceIdeal.Hand

end
-- ==== Proof.lean ====
/-
  The certificate of the two-round graph network: a Pallas program of three kernel regions — two dense blocks and the
  last layer, each tiled over 25 blocks of 2000 node rows — with the neighbour aggregation between them on the host,
  against a plain host program.

  The three frames: the two kernel programs' are the generated frame certificates; the reference's is its run with the
  result dropped. The idealization rewrote nothing, so `preserves` is trivial. The algebraic claim: at the ideal values
  both programs end with the result array at ONE function of the arguments, `net`: two rounds of
  `(1 + eps) · h + (rows of h at the edges' sources, added into the rows at their targets)`, each followed by
  `relu (relu (z · Wa + ba) · Wb + bb)`, then the row-wise log-softmax of `h · Wl + bl`. On the kernel side each region
  leaves the layer function of the arrays it found, because an entry of a dense layer or of a row-wise log-softmax
  depends on one row of the table only and the 25 blocks of rows cover the table; narrowing a weight to a shorter float
  format is the identity on extended reals, and a product accumulated into zero is the product. On the reference side the
  host's dot_general, broadcasts, maximum and reduces spell the same layer functions entry by entry; its one extra
  maximum of the row maximum with −∞ changes nothing, the row maximum being folded from −∞ already. The aggregation rounds
  are the same host operations in both programs and are never opened. No step needs the inputs finite.
-/
import proofs.«174829_j61040075211351_1_alg».proof.Defs
import proofs.«174829_j61040075211351_1_alg».proof.Proof.Gen.Kernel
import proofs.«174829_j61040075211351_1_alg».proof.Proof.Gen.Kernel.Frame
import proofs.«174829_j61040075211351_1_alg».proof.Proof.Gen.KernelIdeal
import proofs.«174829_j61040075211351_1_alg».proof.Proof.Gen.KernelIdeal.Frame
import proofs.«174829_j61040075211351_1_alg».proof.Proof.Gen.ReferenceIdeal
import proofs.«174829_j61040075211351_1_alg».proof.Proof.Gen.Pre_finite_inputs
import proofs.«174829_j61040075211351_1_alg».proof.Proof.KernelRun
import proofs.«174829_j61040075211351_1_alg».proof.Proof.KernelValue
import proofs.«174829_j61040075211351_1_alg».proof.Proof.RefRun
import proofs.«174829_j61040075211351_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the arguments the two programs' networks are one function: the two programs state the
    same dimension records and shape facts. -/
theorem out_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))) :
    Cert.ReferenceIdeal.Hand.out m' c = Cert.KernelIdeal.Chain.out m c := by
  obtain ⟨a0, a1, a2, a3, a4, a5, a6, a7, a8, a9, a10, a11, a12, a13⟩ := h
  unfold Cert.ReferenceIdeal.Hand.out Cert.ReferenceIdeal.Hand.h2 Cert.ReferenceIdeal.Hand.z2 Cert.ReferenceIdeal.Hand.h1
    Cert.ReferenceIdeal.Hand.z1
  rw [a0, a1, a2, a3, a4, a5, a6, a7, a8, a9, a10, a11, a12, a13]
  rfl

theorem algebraic : Cert.algebraic_KernelIdeal_ReferenceIdeal := by
  intro m ρ m' ρ' _ hagree
  refine ⟨fun c => Cert.KernelIdeal.Chain.out m c, ?_, ?_⟩
  · exact (θ_run Cert.KernelIdeal.defs _ _).mono
      (fun _ h c => ⟨(h c).1.trans (Cert.KernelIdeal.Chain.V6_v44 m ρ c), (h c).2⟩)
      (Cert.KernelIdeal.Hand.run_out (F := Ideal) m ρ)
  · refine (θ_run Cert.ReferenceIdeal.defs _ _).mono (fun _ h c => ⟨(h c).1.trans ?_, (h c).2⟩)
      (Cert.ReferenceIdeal.ValueP.run (F := Ideal) m' ρ')
    exact (Cert.ReferenceIdeal.Hand.result_eq m' c).trans (out_agree m m' c (hagree c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
